-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x256 : Shape := ⟨2, ![4096, 256]⟩
abbrev S1024x2048 : Shape := ⟨2, ![1024, 2048]⟩
abbrev S1024x256 : Shape := ⟨2, ![1024, 256]⟩
abbrev S64x256 : Shape := ⟨2, ![64, 256]⟩
abbrev S4096x64 : Shape := ⟨2, ![4096, 64]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024x256 : S_.BroadcastsInDim S1024x256 (![] : Fin 0 → Fin S1024x256.rank)
  reducesTo_S1024x256_S_d0_1 : S1024x256.ReducesTo [0, 1] S_
  bcast_S_S64x256 : S_.BroadcastsInDim S64x256 (![] : Fin 0 → Fin S64x256.rank)
  reducesTo_S64x256_S_d0_1 : S64x256.ReducesTo [0, 1] S_
  bcast_S_S4096x64 : S_.BroadcastsInDim S4096x64 (![] : Fin 0 → Fin S4096x64.rank)
  reducesTo_S4096x64_S_d0_1 : S4096x64.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4096x64 .f32) (main_arg12 : FVec F S4096x64 .f32) (main_arg13 : FVec F S1024 .f32) (main_v48 : IVec S_ 1) (main_v49 : FVec F S4096x64 .f32) (main_v50 : FVec F S4096x64 .f32) : IVec S_ 1 :=
  let main_v51 : IVec S4096x64 1 := cmpf .olt main_v49 main_v50
  let main_c_19 : IVec S_ 1 := constantI S_ 1 1#1
  let main_v52 : IVec S_ 1 := (fun x v => Host.reduce IntOp.andi x v reducesTo_S4096x64_S_d0_1 h_S_) main_v51 main_c_19
  let main_v53 : IVec S_ 1 := andi main_v48 main_v52
  let main_v54 : FVec F S4096x64 .f32 := Host.absf main_arg11
  let main_cst_20 : FVec F S_ .f32 := constant S_ .f32 0x7F800000#32
  let main_v55 : FVec F S4096x64 .f32 := broadcastInDim S4096x64 ![] bcast_S_S4096x64 main_cst_20
  let main_v56 : IVec S4096x64 1 := cmpf .olt main_v54 main_v55
  let main_c_21 : IVec S_ 1 := constantI S_ 1 1#1
  let main_v57 : IVec S_ 1 := (fun x v => Host.reduce IntOp.andi x v reducesTo_S4096x64_S_d0_1 h_S_) main_v56 main_c_21
  let main_v58 : IVec S_ 1 := andi main_v53 main_v57
  let main_v59 : FVec F S4096x64 .f32 := Host.absf main_arg12
  let main_cst_22 : FVec F S_ .f32 := constant S_ .f32 0x7F800000#32
  let main_v60 : FVec F S4096x64 .f32 := broadcastInDim S4096x64 ![] bcast_S_S4096x64 main_cst_22
  let main_v61 : IVec S4096x64 1 := cmpf .olt main_v59 main_v60
  let main_c_23 : IVec S_ 1 := constantI S_ 1 1#1
  let main_v62 : IVec S_ 1 := (fun x v => Host.reduce IntOp.andi x v reducesTo_S4096x64_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024x2048 .f32) (main_arg8 : FVec F S1024x256 .f32) (main_arg9 : FVec F S64x256 .f32) (main_arg10 : FVec F S4096x64 .f32) (main_arg11 : FVec F S4096x64 .f32) (main_arg12 : FVec F S4096x64 .f32) (main_arg13 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S64x256 .f32 := Host.absf main_arg9
  let main_cst_16 : FVec F S_ .f32 := constant S_ .f32 0x7F800000#32
  let main_v45 : FVec F S64x256 .f32 := broadcastInDim S64x256 ![] bcast_S_S64x256 main_cst_16
  let main_v46 : IVec S64x256 1 := cmpf .olt main_v44 main_v45
  let main_c_17 : IVec S_ 1 := constantI S_ 1 1#1
  let main_v47 : IVec S_ 1 := (fun x v => Host.reduce IntOp.andi x v reducesTo_S64x256_S_d0_1 h_S_) main_v46 main_c_17
  let main_v48 : IVec S_ 1 := andi main_v43 main_v47
  let main_v49 : FVec F S4096x64 .f32 := Host.absf main_arg10
  let main_cst_18 : FVec F S_ .f32 := constant S_ .f32 0x7F800000#32
  let main_v50 : FVec F S4096x64 .f32 := broadcastInDim S4096x64 ![] bcast_S_S4096x64 main_cst_18
  fn_part3 (F := F) main_arg11 main_arg12 main_arg13 main_v48 main_v49 main_v50

def fn_part1 {F : FTy → Type} [FloatOps F] (main_arg4 : FVec F S4096x256 .f32) (main_arg5 : FVec F S4096x1024 .f32) (main_arg6 : FVec F S4096x1024 .f32) (main_arg7 : FVec F S1024x2048 .f32) (main_arg8 : FVec F S1024x256 .f32) (main_arg9 : FVec F S64x256 .f32) (main_arg10 : FVec F S4096x64 .f32) (main_arg11 : FVec F S4096x64 .f32) (main_arg12 : FVec F S4096x64 .f32) (main_arg13 : FVec F S1024 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x1024 .f32) (main_arg1 : FVec F S4096x1024 .f32) (main_arg2 : FVec F S4096x1024 .f32) (main_arg3 : FVec F S4096x256 .f32) (main_arg4 : FVec F S4096x256 .f32) (main_arg5 : FVec F S4096x1024 .f32) (main_arg6 : FVec F S4096x1024 .f32) (main_arg7 : FVec F S1024x2048 .f32) (main_arg8 : FVec F S1024x256 .f32) (main_arg9 : FVec F S64x256 .f32) (main_arg10 : FVec F S4096x64 .f32) (main_arg11 : FVec F S4096x64 .f32) (main_arg12 : FVec F S4096x64 .f32) (main_arg13 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x1024 : Shape := ⟨2, ![4096, 1024]⟩
abbrev S4096x256 : Shape := ⟨2, ![4096, 256]⟩
abbrev S1024x2048 : Shape := ⟨2, ![1024, 2048]⟩
abbrev S1024x256 : Shape := ⟨2, ![1024, 256]⟩
abbrev S64x256 : Shape := ⟨2, ![64, 256]⟩
abbrev S4096x64 : Shape := ⟨2, ![4096, 64]⟩
abbrev S1024 : Shape := ⟨1, ![1024]⟩
abbrev S1024x4096 : Shape := ⟨2, ![1024, 4096]⟩
abbrev S1024x1024 : Shape := ⟨2, ![1024, 1024]⟩
abbrev S256x1024 : Shape := ⟨2, ![256, 1024]⟩
abbrev S256x64 : Shape := ⟨2, ![256, 64]⟩
abbrev S64x4096 : Shape := ⟨2, ![64, 4096]⟩
abbrev S1x1024 : Shape := ⟨2, ![1, 1024]⟩
abbrev S256x256 : Shape := ⟨2, ![256, 256]⟩
abbrev S256x4096 : Shape := ⟨2, ![256, 4096]⟩

abbrev nBuf : Space → Nat
  | .hbm => 39
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x256, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S1024x256, .f32⟩
  | .hbm, ⟨9, _⟩ => ⟨S64x256, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S1024, .f32⟩
  | .hbm, ⟨14, _⟩ => ⟨S1024x4096, .f32⟩
  | .hbm, ⟨15, _⟩ => ⟨S1024x4096, .bf16⟩
  | .hbm, ⟨16, _⟩ => ⟨S1024x4096, .f32⟩
  | .hbm, ⟨17, _⟩ => ⟨S1024x4096, .bf16⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S256x1024, .f32⟩
  | .hbm, ⟨25, _⟩ => ⟨S256x1024, .bf16⟩
  | .hbm, ⟨26, _⟩ => ⟨S256x64, .f32⟩
  | .hbm, ⟨27, _⟩ => ⟨S256x64, .bf16⟩
  | .hbm, ⟨28, _⟩ => ⟨S64x4096, .f32⟩
  | .hbm, ⟨29, _⟩ => ⟨S64x4096, .bf16⟩
  | .hbm, ⟨30, _⟩ => ⟨S64x4096, .f32⟩
  | .hbm, ⟨31, _⟩ => ⟨S64x4096, .bf16⟩
  | .hbm, ⟨32, _⟩ => ⟨S64x4096, .f32⟩
  | .hbm, ⟨33, _⟩ => ⟨S64x4096, .bf16⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x256, .f32⟩
  | .hbm, ⟨38, _⟩ => ⟨S4096x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1024x4096, .bf16⟩
  | .local _ .vmem, ⟨11, _⟩ => ⟨S1024x4096, .bf16⟩
  | .local _ .vmem, ⟨12, _⟩ => ⟨S1024x1024, .bf16⟩
  | .local _ .vmem, ⟨13, _⟩ => ⟨S1024x1024, .bf16⟩
  | .local _ .vmem, ⟨14, _⟩ => ⟨S256x1024, .bf16⟩
  | .local _ .vmem, ⟨15, _⟩ => ⟨S256x64, .bf16⟩
  | .local _ .vmem, ⟨16, _⟩ => ⟨S64x4096, .bf16⟩
  | .local _ .vmem, ⟨17, _⟩ => ⟨S64x4096, .bf16⟩
  | .local _ .vmem, ⟨18, _⟩ => ⟨S64x4096, .bf16⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  transposes_S4096x1024_S1024x4096_1_0 : S4096x1024.Transposes [1, 0] S1024x4096
  bitsLt_bf16_f32 : FTy.bits .bf16 < FTy.bits .f32
  slices_S1024x2048_S1024x1024_0_0 : S1024x2048.Slices ![0, 0] S1024x1024
  transposes_S1024x1024_S1024x1024_1_0 : S1024x1024.Transposes [1, 0] S1024x1024
  slices_S1024x2048_S1024x1024_0_1024 : S1024x2048.Slices ![0, 1024] S1024x1024
  transposes_S1024x256_S256x1024_1_0 : S1024x256.Transposes [1, 0] S256x1024
  transposes_S64x256_S256x64_1_0 : S64x256.Transposes [1, 0] S256x64
  transposes_S4096x64_S64x4096_1_0 : S4096x64.Transposes [1, 0] S64x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S256x256_S256x256_0_0 : ∀ a, (![0, 0] : Fin 2 → Nat) a + S256x256.size a ≤ S256x256.size a
  h_S256x256 : 0 < S256x256.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x1024_S256x1024_1_0_0_1_n_n_wf : DotDims.WF S256x1024 S1024x1024 S256x1024 [1] [0] [0] [1] [] []
  dot_S256x256_S256x1024_S256x1024_1_0_0_1_n_n_wf : DotDims.WF S256x256 S256x1024 S256x1024 [1] [0] [0] [1] [] []
  dot_S256x256_S256x64_S256x64_1_0_0_1_n_n_wf : DotDims.WF S256x256 S256x64 S256x64 [1] [0] [0] [1] [] []
  dot_S256x64_S64x4096_S256x4096_1_0_0_1_n_n_wf : DotDims.WF S256x64 S64x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S4096x256.size a
  hwx0_4 : ∀ i : grid0.Coords, EltTy.bits .f32 = 32 ∨ (Rect.block (s := S4096x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S256x1024.size a
  hwx0_9 : ∀ i : grid0.Coords, EltTy.bits .bf16 = 32 ∨ (Rect.block (s := S256x1024) S256x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x64.size a ≤ S256x64.size a
  hwx0_10 : ∀ i : grid0.Coords, EltTy.bits .bf16 = 32 ∨ (Rect.block (s := S256x64) S256x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x4096.size a ≤ S64x4096.size a
  hwx0_11 : ∀ i : grid0.Coords, EltTy.bits .bf16 = 32 ∨ (Rect.block (s := S64x4096) S64x4096.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x4096.size a ≤ S64x4096.size a
  hwx0_12 : ∀ i : grid0.Coords, EltTy.bits .bf16 = 32 ∨ (Rect.block (s := S64x4096) S64x4096.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x4096.size a ≤ S64x4096.size a
  hwx0_13 : ∀ i : grid0.Coords, EltTy.bits .bf16 = 32 ∨ (Rect.block (s := S64x4096) S64x4096.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S4096x1024.size a
  hwx0_15 : ∀ i : grid0.Coords, EltTy.bits .f32 = 32 ∨ (Rect.block (s := S4096x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S4096x1024.size a
  hwx0_16 : ∀ i : grid0.Coords, EltTy.bits .f32 = 32 ∨ (Rect.block (s := S4096x1024) S256x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S4096x256.size a
  hwx0_17 : ∀ i : grid0.Coords, EltTy.bits .f32 = 32 ∨ (Rect.block (s := S4096x256) S256x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S4096x256.size a
  hwx0_18 : ∀ i : grid0.Coords, EltTy.bits .f32 = 32 ∨ (Rect.block (s := S4096x256) S256x256.size (cc0_transform_18 i) (hinb0_18 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S256x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S256x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S64x4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S64x4096.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S64x4096.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v20) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v21_1) S256x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v21_2) S256x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v21_3) S256x256.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x256 : Shape := ⟨2, ![4096, 256]⟩
abbrev S1024x2048 : Shape := ⟨2, ![1024, 2048]⟩
abbrev S1024x256 : Shape := ⟨2, ![1024, 256]⟩
abbrev S64x256 : Shape := ⟨2, ![64, 256]⟩
abbrev S4096x64 : Shape := ⟨2, ![4096, 64]⟩
abbrev S1024 : Shape := ⟨1, ![1024]⟩
abbrev S4096x2048 : Shape := ⟨2, ![4096, 2048]⟩
abbrev S2048x1024 : Shape := ⟨2, ![2048, 1024]⟩
abbrev S256x1024 : Shape := ⟨2, ![256, 1024]⟩
abbrev S1x1024 : Shape := ⟨2, ![1, 1024]⟩
abbrev S_ : Shape := ⟨0, ![]⟩
abbrev S256x64 : Shape := ⟨2, ![256, 64]⟩
abbrev S64x4096 : Shape := ⟨2, ![64, 4096]⟩
abbrev S4096x4096 : Shape := ⟨2, ![4096, 4096]⟩
abbrev S1024x4096 : Shape := ⟨2, ![1024, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x256, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S1024x256, .f32⟩
  | .hbm, ⟨9, _⟩ => ⟨S64x256, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S1024, .f32⟩
  | .hbm, ⟨14, _⟩ => ⟨S4096x2048, .f32⟩
  | .hbm, ⟨15, _⟩ => ⟨S2048x1024, .f32⟩
  | .hbm, ⟨16, _⟩ => ⟨S4096x1024, .f32⟩
  | .hbm, ⟨17, _⟩ => ⟨S256x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S_, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S_, .f32⟩
  | .hbm, ⟨46, _⟩ => ⟨S4096x256, .f32⟩
  | .hbm, ⟨47, _⟩ => ⟨S4096x256, .f32⟩
  | .hbm, ⟨48, _⟩ => ⟨S_, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S4096x256, .f32⟩
  | .hbm, ⟨57, _⟩ => ⟨S256x64, .f32⟩
  | .hbm, ⟨58, _⟩ => ⟨S4096x64, .f32⟩
  | .hbm, ⟨59, _⟩ => ⟨S64x4096, .f32⟩
  | .hbm, ⟨60, _⟩ => ⟨S4096x4096, .f32⟩
  | .hbm, ⟨61, _⟩ => ⟨S1024x4096, .f32⟩
  | .hbm, ⟨62, _⟩ => ⟨S4096x4096, .f32⟩
  | .hbm, ⟨63, _⟩ => ⟨S4096x4096, .f32⟩
  | .hbm, ⟨64, _⟩ => ⟨S64x4096, .f32⟩
  | .hbm, ⟨65, _⟩ => ⟨S4096x4096, .f32⟩
  | .hbm, ⟨66, _⟩ => ⟨S1024x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S64x4096, .f32⟩
  | .hbm, ⟨71, _⟩ => ⟨S4096x4096, .f32⟩
  | .hbm, ⟨72, _⟩ => ⟨S4096x4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  transposes_S1024x2048_S2048x1024_1_0 : S1024x2048.Transposes [1, 0] S2048x1024
  transposes_S1024x256_S256x1024_1_0 : S1024x256.Transposes [1, 0] S256x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S4096x1024_S4096x256_0_0 : S4096x1024.Slices ![0, 0] S4096x256
  slices_S4096x1024_S4096x256_0_256 : S4096x1024.Slices ![0, 256] S4096x256
  slices_S4096x1024_S4096x256_0_512 : S4096x1024.Slices ![0, 512] S4096x256
  slices_S4096x1024_S4096x256_0_768 : S4096x1024.Slices ![0, 768] S4096x256
  bcast_S_S4096x256 : S_.BroadcastsInDim S4096x256 (![] : Fin 0 → Fin S4096x256.rank)
  transposes_S64x256_S256x64_1_0 : S64x256.Transposes [1, 0] S256x64
  transposes_S4096x64_S64x4096_1_0 : S4096x64.Transposes [1, 0] S64x4096
  transposes_S4096x1024_S1024x4096_1_0 : S4096x1024.Transposes [1, 0] S1024x4096
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x2048_S2048x1024_S4096x1024_1_0_0_1_n_n_wf : DotDims.WF S4096x2048 S2048x1024 S4096x1024 [1] [0] [0] [1] [] []
  dot_S4096x256_S256x1024_S4096x1024_1_0_0_1_n_n_wf : DotDims.WF S4096x256 S256x1024 S4096x1024 [1] [0] [0] [1] [] []
  dot_S4096x256_S256x64_S4096x64_1_0_0_1_n_n_wf : DotDims.WF S4096x256 S256x64 S4096x64 [1] [0] [0] [1] [] []
  dot_S4096x64_S64x4096_S4096x4096_1_0_0_1_n_n_wf : DotDims.WF S4096x64 S64x4096 S4096x4096 [1] [0] [0] [1] [] []
  dot_S4096x1024_S1024x4096_S4096x4096_1_0_0_1_n_n_wf : DotDims.WF S4096x1024 S1024x4096 S4096x4096 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.HyperCell.lean ====
/-
  One step of a long short-term memory cell whose gate pre-activations are modulated by a small "hyper" cell,
  written for ONE batch row on the extended reals.

  The small cell has 256 units.  Its four gate pre-activations (input, forget, candidate, output: 4 x 256 = 1024
  numbers) are  x W_x^T + h W_h^T + mh W_hh^T + b,  with x, h the main cell's input and hidden rows (1024 numbers
  each) and mh the small cell's hidden row.  Its new state is  mc' = sigma(f) mc + sigma(i) tanh(g)  and its new hidden
  row  mh' = sigma(o) tanh(mc').  An embedding  z = mh' W_hz^T  (64 numbers) then scales the main cell's two products,
      pre = (z W_di^T) (x W_iH^T) + (z W_dh^T) (h W_HH^T) + z W_b^T          (4 x 1024 = 4096 numbers),
  and the main cell's new state and hidden row follow from pre and its old state c by the same two gate formulas.

  Everything is over the extended reals with the exact operations: sums are finite sums in a commutative monoid, so
  their order and grouping never matter; sigma is 1 / (1 + exp (-x)) with its limits 0 and 1 at the infinities.
  Nothing here mentions a program.
-/
import Idealize.ShloMosaic.PureOps.Ideal
import Idealize.ShloMosaic.Lib.ValueIdx

noncomputable section

open scoped BigOperators

namespace Cert.HyperCell

open Idealize.ShloMosaic Idealize.ShloMosaic.ValueIdx

/-! ## Rows, columns, and a matrix applied to a row -/

/-- Row `p` of a matrix. -/
def row {R n : Nat} (A : (⟨2, ![R, n]⟩ : Shape).Idx → EReal) (p : Fin R) : Fin n → EReal := fun k => A (ix2 p k)

/-- A matrix as a function (first coordinate, second coordinate). -/
def mat {a b : Nat} (A : (⟨2, ![a, b]⟩ : Shape).Idx → EReal) : Fin a → Fin b → EReal := fun n k => A (ix2 n k)

/-- The transposed reading of a matrix stored (input unit, output unit): (output unit, input unit). -/
def matT {a b : Nat} (A : (⟨2, ![b, a]⟩ : Shape).Idx → EReal) : Fin a → Fin b → EReal := fun n k => A (ix2 k n)

/-- A weight matrix (output unit, input unit) applied to a row: entry `n` is the sum over `k` of `v k * W n k`. -/
def proj {a b : Nat} (W : Fin a → Fin b → EReal) (v : Fin b → EReal) (n : Fin a) : EReal := ∑ k : Fin b, v k * W n k

/-! ## The gates -/

/-- The new cell state from the input, forget and candidate pre-activations and the old state. -/
def gateC (pi pf pg c : EReal) : EReal := Ideal.logistic pf * c + Ideal.logistic pi * Ideal.tanh pg

/-- The new hidden value from the output pre-activation and the new cell state. -/
def gateH (po cnew : EReal) : EReal := Ideal.logistic po * Ideal.tanh cnew

/-- The small cell's new state: unit `q` reads its four pre-activations at `q`, `256 + q`, `512 + q`, `768 + q`. -/
def smallC (pre : Fin 1024 → EReal) (c : Fin 256 → EReal) (q : Fin 256) : EReal :=
  gateC (pre ⟨q.val, by omega⟩) (pre ⟨256 + q.val, by omega⟩) (pre ⟨512 + q.val, by omega⟩) (c q)

/-- The small cell's new hidden row. -/
def smallH (pre : Fin 1024 → EReal) (c : Fin 256 → EReal) (q : Fin 256) : EReal :=
  gateH (pre ⟨768 + q.val, by omega⟩) (smallC pre c q)

/-- The main cell's new state: unit `q` reads its four pre-activations at `q`, `1024 + q`, `2048 + q`, `3072 + q`. -/
def mainC (pre : Fin 4096 → EReal) (c : Fin 1024 → EReal) (q : Fin 1024) : EReal :=
  gateC (pre ⟨q.val, by omega⟩) (pre ⟨1024 + q.val, by omega⟩) (pre ⟨2048 + q.val, by omega⟩) (c q)

/-- The main cell's new hidden row. -/
def mainH (pre : Fin 4096 → EReal) (c : Fin 1024 → EReal) (q : Fin 1024) : EReal :=
  gateH (pre ⟨3072 + q.val, by omega⟩) (mainC pre c q)

/-! ## The two pre-activations -/

/-- The small cell's pre-activations of one row. -/
def smallPre (Wx Wh : Fin 1024 → Fin 1024 → EReal) (Whh : Fin 1024 → Fin 256 → EReal) (b : Fin 1024 → EReal)
    (x h : Fin 1024 → EReal) (mh : Fin 256 → EReal) (n : Fin 1024) : EReal :=
  ((proj Wx x n + proj Wh h n) + proj Whh mh n) + b n

/-- The main cell's pre-activations of one row, from the embedding `z`. -/
def mainPre (Wdi : Fin 4096 → Fin 64 → EReal) (WiH : Fin 4096 → Fin 1024 → EReal) (Wdh : Fin 4096 → Fin 64 → EReal)
    (WHH : Fin 4096 → Fin 1024 → EReal) (Wb : Fin 4096 → Fin 64 → EReal)
    (z : Fin 64 → EReal) (x h : Fin 1024 → EReal) (n : Fin 4096) : EReal :=
  (proj Wdi z n * proj WiH x n + proj Wdh z n * proj WHH h n) + proj Wb z n

/-! ## The step, one row -/

/-- The step's weights, each read (output unit, input unit). -/
structure Weights where
  WiH : Fin 4096 → Fin 1024 → EReal
  WHH : Fin 4096 → Fin 1024 → EReal
  Wx : Fin 1024 → Fin 1024 → EReal
  Wh : Fin 1024 → Fin 1024 → EReal
  Whh : Fin 1024 → Fin 256 → EReal
  Whz : Fin 64 → Fin 256 → EReal
  Wdi : Fin 4096 → Fin 64 → EReal
  Wdh : Fin 4096 → Fin 64 → EReal
  Wb : Fin 4096 → Fin 64 → EReal
  b : Fin 1024 → EReal

/-- The small cell's new state row. -/
def rowSmallC (W : Weights) (x h : Fin 1024 → EReal) (mh mc : Fin 256 → EReal) : Fin 256 → EReal :=
  smallC (smallPre W.Wx W.Wh W.Whh W.b x h mh) mc

/-- The small cell's new hidden row. -/
def rowSmallH (W : Weights) (x h : Fin 1024 → EReal) (mh mc : Fin 256 → EReal) : Fin 256 → EReal :=
  smallH (smallPre W.Wx W.Wh W.Whh W.b x h mh) mc

/-- The main cell's pre-activations, the embedding being the small cell's new hidden row through `W_hz`. -/
def rowMainPre (W : Weights) (x h : Fin 1024 → EReal) (mh mc : Fin 256 → EReal) : Fin 4096 → EReal :=
  mainPre W.Wdi W.WiH W.Wdh W.WHH W.Wb (proj W.Whz (rowSmallH W x h mh mc)) x h

/-- The main cell's new state row. -/
def rowMainC (W : Weights) (x h c : Fin 1024 → EReal) (mh mc : Fin 256 → EReal) : Fin 1024 → EReal :=
  mainC (rowMainPre W x h mh mc) c

/-- The main cell's new hidden row. -/
def rowMainH (W : Weights) (x h c : Fin 1024 → EReal) (mh mc : Fin 256 → EReal) : Fin 1024 → EReal :=
  mainH (rowMainPre W x h mh mc) c

/-! ## The step on a batch: each result array, index by index -/

/-- The weights read off the parameter arrays as the step receives them: `W_iH`, `W_HH` [4096, 1024], `W_ih`
    [1024, 2048] whose first 1024 input units meet `x` and whose last 1024 meet `h`, `W_hh` [1024, 256], `W_hz`
    [64, 256], the three embedding weights [4096, 64], the bias [1024]. -/
def weightsOf (a5 a6 : (⟨2, ![4096, 1024]⟩ : Shape).Idx → EReal) (a7 : (⟨2, ![1024, 2048]⟩ : Shape).Idx → EReal)
    (a8 : (⟨2, ![1024, 256]⟩ : Shape).Idx → EReal) (a9 : (⟨2, ![64, 256]⟩ : Shape).Idx → EReal)
    (a10 a11 a12 : (⟨2, ![4096, 64]⟩ : Shape).Idx → EReal) (a13 : (⟨1, ![1024]⟩ : Shape).Idx → EReal) : Weights where
  WiH := mat a5
  WHH := mat a6
  Wx := fun n k => a7 (ix2 n (⟨k.val, by omega⟩ : Fin 2048))
  Wh := fun n k => a7 (ix2 n (⟨1024 + k.val, by omega⟩ : Fin 2048))
  Whh := mat a8
  Whz := mat a9
  Wdi := mat a10
  Wdh := mat a11
  Wb := mat a12
  b := fun n => a13 (ix1 n)

/-- The main cell's new hidden array [4096, 1024]. -/
def arrMainH (W : Weights) (X H C : (⟨2, ![4096, 1024]⟩ : Shape).Idx → EReal) (MH MC : (⟨2, ![4096, 256]⟩ : Shape).Idx → EReal) :
    (⟨2, ![4096, 1024]⟩ : Shape).Idx → EReal :=
  fun i => rowMainH W (row X (i 0)) (row H (i 0)) (row C (i 0)) (row MH (i 0)) (row MC (i 0)) (i 1)

/-- The main cell's new state array [4096, 1024]. -/
def arrMainC (W : Weights) (X H C : (⟨2, ![4096, 1024]⟩ : Shape).Idx → EReal) (MH MC : (⟨2, ![4096, 256]⟩ : Shape).Idx → EReal) :
    (⟨2, ![4096, 1024]⟩ : Shape).Idx → EReal :=
  fun i => rowMainC W (row X (i 0)) (row H (i 0)) (row C (i 0)) (row MH (i 0)) (row MC (i 0)) (i 1)

/-- The small cell's new hidden array [4096, 256]. -/
def arrSmallH (W : Weights) (X H : (⟨2, ![4096, 1024]⟩ : Shape).Idx → EReal) (MH MC : (⟨2, ![4096, 256]⟩ : Shape).Idx → EReal) :
    (⟨2, ![4096, 256]⟩ : Shape).Idx → EReal :=
  fun i => rowSmallH W (row X (i 0)) (row H (i 0)) (row MH (i 0)) (row MC (i 0)) (i 1)

/-- The small cell's new state array [4096, 256]. -/
def arrSmallC (W : Weights) (X H : (⟨2, ![4096, 1024]⟩ : Shape).Idx → EReal) (MH MC : (⟨2, ![4096, 256]⟩ : Shape).Idx → EReal) :
    (⟨2, ![4096, 256]⟩ : Shape).Idx → EReal :=
  fun i => rowSmallC W (row X (i 0)) (row H (i 0)) (row MH (i 0)) (row MC (i 0)) (i 1)

/-! ## Two laws -/

/-- A row of 2048 numbers against a weight row of 2048 numbers splits at 1024: the first halves' sum plus the
    second halves' sum.  Only commutativity and associativity of the sum are used, so it holds at the infinities. -/
theorem sum_split_1024 (f : Fin 2048 → EReal) :
    ∑ k : Fin 2048, f k = (∑ k : Fin 1024, f ⟨k.val, by omega⟩) + ∑ k : Fin 1024, f ⟨1024 + k.val, by omega⟩ := by
  have h := Fin.sum_univ_add (M := EReal) (a := 1024) (b := 1024) f
  exact h

/-- The logistic function is the quotient `1 / (1 + exp (-x))`, as a host program spells it. -/
theorem logistic_eq (x : EReal) : Ideal.logistic x = Ideal.div 1 (1 + Ideal.exp (-x)) := rfl

/-- The word of the float one denotes the number one. -/
theorem ofBits_one_f32 : Ideal.ofBits .f32 0x3F800000#32 = 1 := by
  simp [Ideal.ofBits, Ideal.ieee, -EReal.coe_mul]; norm_num

end Cert.HyperCell

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.KernelRow.lean ====
/-
  The kernel's arithmetic on one block of 256 batch rows, read one entry at a time.

  The body computes, from the block's rows of x, h, mh, mc, c and from the whole weight matrices (stored
  (input unit, output unit)), the small cell's pre-activations (three matrix products and the bias row), its gates,
  the embedding, the main cell's pre-activations (six matrix products, three of them of the embedding) and its gates.
  Every matrix product accumulates into zero, so at the exact extended reals its entry (p, c) is the weight matrix
  applied to row p; a change of float format is the identity; a column slice at offset o reads column o + q.
  Hence entry (r, q) of each of the four stored blocks is the one-row step of the specification at row r of the block.
-/
import proofs.«167938_j35691178230152_2_alg».proof.Proof.Gen.KernelIdeal.Value
import proofs.«167938_j35691178230152_2_alg».proof.Proof.HyperCell
import proofs.«167938_j35691178230152_2_alg».proof.Proof.LibPlainMatmul
import Idealize.ShloMosaic.Lib.Pipeline.Value
import Idealize.ShloMosaic.Lib.ValueLayout
import Idealize.ShloMosaic.PureOps.Ideal.Laws

noncomputable section

open scoped BigOperators

namespace Cert.KernelRow

open Cert.KernelIdeal Cert.KernelIdeal.Gen Cert.KernelIdeal.Value Cert.HyperCell
open Idealize.ShloMosaic Idealize.ShloMosaic.ValueIdx

/-! ## The five shapes of matrix product -/

/-- A block of 256 rows of 1024 numbers times a 1024 x 1024 weight matrix.  Entry (p, c) is the weight matrix, read (output unit, input unit), applied to row p. -/
theorem mm_1024_1024 (l : FVec Ideal S256x1024 .bf16) (r : FVec Ideal S1024x1024 .bf16) (p : Fin 256) (c : Fin 1024) :
    matmul dot_S256x1024_S1024x1024_S256x1024_1_0_0_1_n_n none l r (constant (F := Ideal) S256x1024 .f32 0x00000000#32) (ix2 p c)
      = proj (matT r) (row l p) c :=
  Cert.PlainMatmul.matmul_zero_apply (M := 256) (K := 1024) (N := 1024) dot_S256x1024_S1024x1024_S256x1024_1_0_0_1_n_n rfl rfl
    (fun j q => by
      unfold DotDims.lhsIdx
      rw [dif_neg (show ¬(0 : Fin S256x1024.rank) ∈ dot_S256x1024_S1024x1024_S256x1024_1_0_0_1_n_n.lhsBatch by decide),
        dif_pos (show (0 : Fin S256x1024.rank) ∈ dot_S256x1024_S1024x1024_S256x1024_1_0_0_1_n_n.lhsNonContracting by decide)]
      rfl)
    (fun j q => dot_S256x1024_S1024x1024_S256x1024_1_0_0_1_n_n.lhsIdx_val_of_single rfl j q)
    (fun j q => dot_S256x1024_S1024x1024_S256x1024_1_0_0_1_n_n.rhsIdx_val_of_single rfl j q)
    (fun j q => by
      unfold DotDims.rhsIdx
      rw [dif_neg (show ¬(1 : Fin S1024x1024.rank) ∈ dot_S256x1024_S1024x1024_S256x1024_1_0_0_1_n_n.rhsBatch by decide),
        dif_pos (show (1 : Fin S1024x1024.rank) ∈ dot_S256x1024_S1024x1024_S256x1024_1_0_0_1_n_n.rhsNonContracting by decide)]
      rfl)
    none l r p c

/-- A block of 256 rows of 256 numbers times a 256 x 1024 weight matrix.  Entry (p, c) is the weight matrix, read (output unit, input unit), applied to row p. -/
theorem mm_256_1024 (l : FVec Ideal S256x256 .bf16) (r : FVec Ideal S256x1024 .bf16) (p : Fin 256) (c : Fin 1024) :
    matmul dot_S256x256_S256x1024_S256x1024_1_0_0_1_n_n none l r (constant (F := Ideal) S256x1024 .f32 0x00000000#32) (ix2 p c)
      = proj (matT r) (row l p) c :=
  Cert.PlainMatmul.matmul_zero_apply (M := 256) (K := 256) (N := 1024) dot_S256x256_S256x1024_S256x1024_1_0_0_1_n_n rfl rfl
    (fun j q => by
      unfold DotDims.lhsIdx
      rw [dif_neg (show ¬(0 : Fin S256x256.rank) ∈ dot_S256x256_S256x1024_S256x1024_1_0_0_1_n_n.lhsBatch by decide),
        dif_pos (show (0 : Fin S256x256.rank) ∈ dot_S256x256_S256x1024_S256x1024_1_0_0_1_n_n.lhsNonContracting by decide)]
      rfl)
    (fun j q => dot_S256x256_S256x1024_S256x1024_1_0_0_1_n_n.lhsIdx_val_of_single rfl j q)
    (fun j q => dot_S256x256_S256x1024_S256x1024_1_0_0_1_n_n.rhsIdx_val_of_single rfl j q)
    (fun j q => by
      unfold DotDims.rhsIdx
      rw [dif_neg (show ¬(1 : Fin S256x1024.rank) ∈ dot_S256x256_S256x1024_S256x1024_1_0_0_1_n_n.rhsBatch by decide),
        dif_pos (show (1 : Fin S256x1024.rank) ∈ dot_S256x256_S256x1024_S256x1024_1_0_0_1_n_n.rhsNonContracting by decide)]
      rfl)
    none l r p c

/-- A block of 256 rows of 256 numbers times a 256 x 64 weight matrix.  Entry (p, c) is the weight matrix, read (output unit, input unit), applied to row p. -/
theorem mm_256_64 (l : FVec Ideal S256x256 .bf16) (r : FVec Ideal S256x64 .bf16) (p : Fin 256) (c : Fin 64) :
    matmul dot_S256x256_S256x64_S256x64_1_0_0_1_n_n none l r (constant (F := Ideal) S256x64 .f32 0x00000000#32) (ix2 p c)
      = proj (matT r) (row l p) c :=
  Cert.PlainMatmul.matmul_zero_apply (M := 256) (K := 256) (N := 64) dot_S256x256_S256x64_S256x64_1_0_0_1_n_n rfl rfl
    (fun j q => by
      unfold DotDims.lhsIdx
      rw [dif_neg (show ¬(0 : Fin S256x256.rank) ∈ dot_S256x256_S256x64_S256x64_1_0_0_1_n_n.lhsBatch by decide),
        dif_pos (show (0 : Fin S256x256.rank) ∈ dot_S256x256_S256x64_S256x64_1_0_0_1_n_n.lhsNonContracting by decide)]
      rfl)
    (fun j q => dot_S256x256_S256x64_S256x64_1_0_0_1_n_n.lhsIdx_val_of_single rfl j q)
    (fun j q => dot_S256x256_S256x64_S256x64_1_0_0_1_n_n.rhsIdx_val_of_single rfl j q)
    (fun j q => by
      unfold DotDims.rhsIdx
      rw [dif_neg (show ¬(1 : Fin S256x64.rank) ∈ dot_S256x256_S256x64_S256x64_1_0_0_1_n_n.rhsBatch by decide),
        dif_pos (show (1 : Fin S256x64.rank) ∈ dot_S256x256_S256x64_S256x64_1_0_0_1_n_n.rhsNonContracting by decide)]
      rfl)
    none l r p c

/-- A block of 256 rows of 64 numbers times a 64 x 4096 weight matrix.  Entry (p, c) is the weight matrix, read (output unit, input unit), applied to row p. -/
theorem mm_64_4096 (l : FVec Ideal S256x64 .bf16) (r : FVec Ideal S64x4096 .bf16) (p : Fin 256) (c : Fin 4096) :
    matmul dot_S256x64_S64x4096_S256x4096_1_0_0_1_n_n none l r (constant (F := Ideal) S256x4096 .f32 0x00000000#32) (ix2 p c)
      = proj (matT r) (row l p) c :=
  Cert.PlainMatmul.matmul_zero_apply (M := 256) (K := 64) (N := 4096) dot_S256x64_S64x4096_S256x4096_1_0_0_1_n_n rfl rfl
    (fun j q => by
      unfold DotDims.lhsIdx
      rw [dif_neg (show ¬(0 : Fin S256x64.rank) ∈ dot_S256x64_S64x4096_S256x4096_1_0_0_1_n_n.lhsBatch by decide),
        dif_pos (show (0 : Fin S256x64.rank) ∈ dot_S256x64_S64x4096_S256x4096_1_0_0_1_n_n.lhsNonContracting by decide)]
      rfl)
    (fun j q => dot_S256x64_S64x4096_S256x4096_1_0_0_1_n_n.lhsIdx_val_of_single rfl j q)
    (fun j q => dot_S256x64_S64x4096_S256x4096_1_0_0_1_n_n.rhsIdx_val_of_single rfl j q)
    (fun j q => by
      unfold DotDims.rhsIdx
      rw [dif_neg (show ¬(1 : Fin S64x4096.rank) ∈ dot_S256x64_S64x4096_S256x4096_1_0_0_1_n_n.rhsBatch by decide),
        dif_pos (show (1 : Fin S64x4096.rank) ∈ dot_S256x64_S64x4096_S256x4096_1_0_0_1_n_n.rhsNonContracting by decide)]
      rfl)
    none l r p c

/-- A block of 256 rows of 1024 numbers times a 1024 x 4096 weight matrix.  Entry (p, c) is the weight matrix, read (output unit, input unit), applied to row p. -/
theorem mm_1024_4096 (l : FVec Ideal S256x1024 .bf16) (r : FVec Ideal S1024x4096 .bf16) (p : Fin 256) (c : Fin 4096) :
    matmul dot_S256x1024_S1024x4096_S256x4096_1_0_0_1_n_n none l r (constant (F := Ideal) S256x4096 .f32 0x00000000#32) (ix2 p c)
      = proj (matT r) (row l p) c :=
  Cert.PlainMatmul.matmul_zero_apply (M := 256) (K := 1024) (N := 4096) dot_S256x1024_S1024x4096_S256x4096_1_0_0_1_n_n rfl rfl
    (fun j q => by
      unfold DotDims.lhsIdx
      rw [dif_neg (show ¬(0 : Fin S256x1024.rank) ∈ dot_S256x1024_S1024x4096_S256x4096_1_0_0_1_n_n.lhsBatch by decide),
        dif_pos (show (0 : Fin S256x1024.rank) ∈ dot_S256x1024_S1024x4096_S256x4096_1_0_0_1_n_n.lhsNonContracting by decide)]
      rfl)
    (fun j q => dot_S256x1024_S1024x4096_S256x4096_1_0_0_1_n_n.lhsIdx_val_of_single rfl j q)
    (fun j q => dot_S256x1024_S1024x4096_S256x4096_1_0_0_1_n_n.rhsIdx_val_of_single rfl j q)
    (fun j q => by
      unfold DotDims.rhsIdx
      rw [dif_neg (show ¬(1 : Fin S1024x4096.rank) ∈ dot_S256x1024_S1024x4096_S256x4096_1_0_0_1_n_n.rhsBatch by decide),
        dif_pos (show (1 : Fin S1024x4096.rank) ∈ dot_S256x1024_S1024x4096_S256x4096_1_0_0_1_n_n.rhsNonContracting by decide)]
      rfl)
    none l r p c

/-! ## The small cell's pre-activations -/

/-- Entry (r, n) of the small cell's pre-activation block: the three products and the bias, grouped as the body adds them. -/
theorem smallPre_block (P0 P1 : FVec Ideal S256x1024 .f32) (P3 : FVec Ideal S256x256 .f32) (P4 P5 : FVec Ideal S1024x1024 .bf16)
    (P6 : FVec Ideal S256x1024 .bf16) (P7 : FVec Ideal S1x1024 .f32) (r : Fin 256) (n : Fin 1024) :
    k0_pay3 (F := Ideal) P0 P1 P3 P4 P5 P6 P7 (ix2 r n)
      = smallPre (matT P4) (matT P5) (matT P6) (fun n => P7 (ix2 (0 : Fin 1) n)) (row P0 r) (row P1 r) (row P3 r) n := by
  have e1 := mm_1024_1024 (truncf .bf16 P0 bitsLt_bf16_f32) P4 r n
  have e2 := mm_1024_1024 (truncf .bf16 P1 bitsLt_bf16_f32) P5 r n
  have e3 := mm_256_1024 (truncf .bf16 P3 bitsLt_bf16_f32) P6 r n
  have e4 := broadcastTo_1b_ab_apply P7 broadcasts_S1x1024_S256x1024 r n
  unfold k0_pay3 k0_pay1 k0_pay2
  simp only [shapeCast_self]
  rw [addf_apply, addf_apply, addf_apply, e1, e2, e3, e4]
  rfl

/-! ## The small cell's gates, on a block -/

/-- The small cell's new hidden block, as the body spells it over a pre-activation block `pre` and the old state block
    `c`, read at (r, q): the four column slices of `pre` read columns `q`, `256 + q`, `512 + q`, `768 + q` of row r. -/
theorem smallH_block (pre : FVec Ideal S256x1024 .f32) (c : FVec Ideal S256x256 .f32) (r q : Fin 256) :
    (truncf .bf16 (mulf (logistic (extractStridedSlice S256x256 ![0, 768] pre slices_S256x1024_o0_768_S256x256))
      (tanh (addf (mulf (logistic (extractStridedSlice S256x256 ![0, 256] pre slices_S256x1024_o0_256_S256x256)) c)
        (mulf (logistic (extractStridedSlice S256x256 ![0, 0] pre slices_S256x1024_o0_0_S256x256))
          (tanh (extractStridedSlice S256x256 ![0, 512] pre slices_S256x1024_o0_512_S256x256))))))
      bitsLt_bf16_f32 : FVec Ideal S256x256 .bf16) (ix2 r q)
      = smallH (row pre r) (row c r) q := by
  have s0 := slice2_axis1_eq 0 pre slices_S256x1024_o0_0_S256x256 r q
  have s1 := slice2_axis1_eq 256 pre slices_S256x1024_o0_256_S256x256 r q
  have s2 := slice2_axis1_eq 512 pre slices_S256x1024_o0_512_S256x256 r q
  have s3 := slice2_axis1_eq 768 pre slices_S256x1024_o0_768_S256x256 r q
  show Ideal.logistic (extractStridedSlice S256x256 ![0, 768] pre slices_S256x1024_o0_768_S256x256 (ix2 r q))
      * Ideal.tanh (Ideal.logistic (extractStridedSlice S256x256 ![0, 256] pre slices_S256x1024_o0_256_S256x256 (ix2 r q)) * c (ix2 r q)
        + Ideal.logistic (extractStridedSlice S256x256 ![0, 0] pre slices_S256x1024_o0_0_S256x256 (ix2 r q))
          * Ideal.tanh (extractStridedSlice S256x256 ![0, 512] pre slices_S256x1024_o0_512_S256x256 (ix2 r q))) = _
  rw [s0, s1, s2, s3]
  simp only [Nat.zero_add]
  rfl

/-! ## The main cell's pre-activations -/

/-- Entry (r, n) of the main cell's pre-activation block, for any blocks `A`, `B` (the rows of x and h), `C` (the
    embedding weights) and `D` (the small cell's new hidden block): the embedding of row r is `C` applied to row r of
    `D`, and the three products of the embedding and the two of x and h combine as the body multiplies and adds them. -/
theorem mainPre_block (A B : FVec Ideal S256x1024 .bf16) (C : FVec Ideal S256x64 .bf16) (D : FVec Ideal S256x256 .bf16)
    (P9 P10 : FVec Ideal S1024x4096 .bf16) (P11 P12 P13 : FVec Ideal S64x4096 .bf16) (r : Fin 256) (n : Fin 4096) :
    k0_pay8 (F := Ideal) A B C D P9 P10 P11 P12 P13 (ix2 r n)
      = mainPre (matT P11) (matT P9) (matT P12) (matT P10) (matT P13) (proj (matT C) (row D r)) (row A r) (row B r) n := by
  have hz : row (truncf .bf16 (matmul dot_S256x256_S256x64_S256x64_1_0_0_1_n_n none D C
      (constant (F := Ideal) S256x64 .f32 0x00000000#32)) bitsLt_bf16_f32 : FVec Ideal S256x64 .bf16) r
      = proj (matT C) (row D r) := funext fun e => mm_256_64 D C r e
  have e1 := mm_64_4096 (truncf .bf16 (matmul dot_S256x256_S256x64_S256x64_1_0_0_1_n_n none D C
      (constant (F := Ideal) S256x64 .f32 0x00000000#32)) bitsLt_bf16_f32) P11 r n
  have e2 := mm_1024_4096 A P9 r n
  have e3 := mm_64_4096 (truncf .bf16 (matmul dot_S256x256_S256x64_S256x64_1_0_0_1_n_n none D C
      (constant (F := Ideal) S256x64 .f32 0x00000000#32)) bitsLt_bf16_f32) P12 r n
  have e4 := mm_1024_4096 B P10 r n
  have e5 := mm_64_4096 (truncf .bf16 (matmul dot_S256x256_S256x64_S256x64_1_0_0_1_n_n none D C
      (constant (F := Ideal) S256x64 .f32 0x00000000#32)) bitsLt_bf16_f32) P13 r n
  rw [hz] at e1 e3 e5
  unfold k0_pay8
  simp only [shapeCast_self]
  rw [addf_apply, addf_apply, mulf_apply, mulf_apply, e1, e2, e3, e4, e5]
  rfl

/-! ## The four stored blocks -/

/-- The weights as the body finds them in its whole-array windows, each stored (input unit, output unit). -/
def blockWeights (P2 : FVec Ideal S256x64 .bf16) (P4 P5 : FVec Ideal S1024x1024 .bf16) (P6 : FVec Ideal S256x1024 .bf16)
    (P7 : FVec Ideal S1x1024 .f32) (P9 P10 : FVec Ideal S1024x4096 .bf16) (P11 P12 P13 : FVec Ideal S64x4096 .bf16) : Weights where
  WiH := matT P9
  WHH := matT P10
  Wx := matT P4
  Wh := matT P5
  Whh := matT P6
  Whz := matT P2
  Wdi := matT P11
  Wdh := matT P12
  Wb := matT P13
  b := fun n => P7 (ix2 (0 : Fin 1) n)

/-- The small cell's new state block at (r, q) is the one-row step at row r. -/
theorem smallC_stored (P0 P1 : FVec Ideal S256x1024 .f32) (P2 : FVec Ideal S256x256 .f32) (P3 P4 : FVec Ideal S1024x1024 .bf16)
    (P5 : FVec Ideal S256x1024 .bf16) (P6 : FVec Ideal S1x1024 .f32) (P7 : FVec Ideal S256x256 .f32) (r q : Fin 256) :
    E18 (F := Ideal) P0 P1 P2 P3 P4 P5 P6 P7 (ix2 r q)
      = smallC (smallPre (matT P3) (matT P4) (matT P5) (fun n => P6 (ix2 (0 : Fin 1) n)) (row P0 r) (row P1 r) (row P2 r)) (row P7 r) q := by
  have hp := fun n => smallPre_block P0 P1 P2 P3 P4 P5 P6 r n
  have i0 : ix18_0 (ix2 r q) = ix2 r (⟨256 + q.val, by omega⟩ : Fin 1024) := funext fun a => Fin.ext (by
    match a with | ⟨0, _⟩ => rfl | ⟨1, _⟩ => exact Nat.add_comm _ _)
  have i1 : ix18_1 (ix2 r q) = ix2 r q := funext fun a => Fin.ext (by match a with | ⟨0, _⟩ => rfl | ⟨1, _⟩ => rfl)
  have i2 : ix18_2 (ix2 r q) = ix2 r (⟨q.val, by omega⟩ : Fin 1024) := funext fun a => Fin.ext (by
    match a with | ⟨0, _⟩ => rfl | ⟨1, _⟩ => rfl)
  have i3 : ix18_3 (ix2 r q) = ix2 r (⟨512 + q.val, by omega⟩ : Fin 1024) := funext fun a => Fin.ext (by
    match a with | ⟨0, _⟩ => rfl | ⟨1, _⟩ => exact Nat.add_comm _ _)
  show FloatOps.addf (FloatOps.mulf (FloatOps.logistic (k0_pay3 P0 P1 P2 P3 P4 P5 P6 (ix18_0 (ix2 r q)))) (P7 (ix18_1 (ix2 r q))))
      (FloatOps.mulf (FloatOps.logistic (k0_pay3 P0 P1 P2 P3 P4 P5 P6 (ix18_2 (ix2 r q)))) (FloatOps.tanh (k0_pay3 P0 P1 P2 P3 P4 P5 P6 (ix18_3 (ix2 r q))))) = _
  rw [i0, i1, i2, i3, hp, hp, hp]
  rfl

/-- The small cell's new hidden block at (r, q) is the one-row step at row r. -/
theorem smallH_stored (P0 P1 : FVec Ideal S256x1024 .f32) (P2 : FVec Ideal S256x256 .f32) (P3 P4 : FVec Ideal S1024x1024 .bf16)
    (P5 : FVec Ideal S256x1024 .bf16) (P6 : FVec Ideal S1x1024 .f32) (P7 : FVec Ideal S256x256 .f32) (r q : Fin 256) :
    E17 (F := Ideal) P0 P1 P2 P3 P4 P5 P6 P7 (ix2 r q)
      = smallH (smallPre (matT P3) (matT P4) (matT P5) (fun n => P6 (ix2 (0 : Fin 1) n)) (row P0 r) (row P1 r) (row P2 r)) (row P7 r) q := by
  have hp := fun n => smallPre_block P0 P1 P2 P3 P4 P5 P6 r n
  have i0 : ix17_0 (ix2 r q) = ix2 r (⟨768 + q.val, by omega⟩ : Fin 1024) := funext fun a => Fin.ext (by
    match a with | ⟨0, _⟩ => rfl | ⟨1, _⟩ => exact Nat.add_comm _ _)
  have i1 : ix17_1 (ix2 r q) = ix2 r (⟨256 + q.val, by omega⟩ : Fin 1024) := funext fun a => Fin.ext (by
    match a with | ⟨0, _⟩ => rfl | ⟨1, _⟩ => exact Nat.add_comm _ _)
  have i2 : ix17_2 (ix2 r q) = ix2 r q := funext fun a => Fin.ext (by match a with | ⟨0, _⟩ => rfl | ⟨1, _⟩ => rfl)
  have i3 : ix17_3 (ix2 r q) = ix2 r (⟨q.val, by omega⟩ : Fin 1024) := funext fun a => Fin.ext (by
    match a with | ⟨0, _⟩ => rfl | ⟨1, _⟩ => rfl)
  have i4 : ix17_4 (ix2 r q) = ix2 r (⟨512 + q.val, by omega⟩ : Fin 1024) := funext fun a => Fin.ext (by
    match a with | ⟨0, _⟩ => rfl | ⟨1, _⟩ => exact Nat.add_comm _ _)
  show FloatOps.mulf (FloatOps.logistic (k0_pay3 P0 P1 P2 P3 P4 P5 P6 (ix17_0 (ix2 r q))))
      (FloatOps.tanh (FloatOps.addf (FloatOps.mulf (FloatOps.logistic (k0_pay3 P0 P1 P2 P3 P4 P5 P6 (ix17_1 (ix2 r q)))) (P7 (ix17_2 (ix2 r q))))
        (FloatOps.mulf (FloatOps.logistic (k0_pay3 P0 P1 P2 P3 P4 P5 P6 (ix17_3 (ix2 r q)))) (FloatOps.tanh (k0_pay3 P0 P1 P2 P3 P4 P5 P6 (ix17_4 (ix2 r q))))))) = _
  rw [i0, i1, i2, i3, i4, hp, hp, hp, hp]
  rfl

/-- The small cell's new hidden block as the body hands it to the embedding product. -/
abbrev hidBlock (P0 P1 : FVec Ideal S256x1024 .f32) (P3 : FVec Ideal S256x256 .f32) (P4 P5 : FVec Ideal S1024x1024 .bf16)
    (P6 : FVec Ideal S256x1024 .bf16) (P7 : FVec Ideal S1x1024 .f32) (P8 : FVec Ideal S256x256 .f32) : FVec Ideal S256x256 .bf16 :=
  truncf .bf16 (mulf (logistic (extractStridedSlice S256x256 ![0, 768] (k0_pay3 P0 P1 P3 P4 P5 P6 P7) slices_S256x1024_o0_768_S256x256))
    (tanh (addf (mulf (logistic (extractStridedSlice S256x256 ![0, 256] (k0_pay3 P0 P1 P3 P4 P5 P6 P7) slices_S256x1024_o0_256_S256x256)) P8)
      (mulf (logistic (extractStridedSlice S256x256 ![0, 0] (k0_pay3 P0 P1 P3 P4 P5 P6 P7) slices_S256x1024_o0_0_S256x256))
        (tanh (extractStridedSlice S256x256 ![0, 512] (k0_pay3 P0 P1 P3 P4 P5 P6 P7) slices_S256x1024_o0_512_S256x256))))))
    bitsLt_bf16_f32

/-- The main cell's pre-activation block as the body computes it from its loads. -/
abbrev preBlock (P0 P1 : FVec Ideal S256x1024 .f32) (P2 : FVec Ideal S256x64 .bf16) (P3 : FVec Ideal S256x256 .f32)
    (P4 P5 : FVec Ideal S1024x1024 .bf16) (P6 : FVec Ideal S256x1024 .bf16) (P7 : FVec Ideal S1x1024 .f32) (P8 : FVec Ideal S256x256 .f32)
    (P9 P10 : FVec Ideal S1024x4096 .bf16) (P11 P12 P13 : FVec Ideal S64x4096 .bf16) : FVec Ideal S256x4096 .f32 :=
  k0_pay8 (truncf .bf16 P0 bitsLt_bf16_f32) (truncf .bf16 P1 bitsLt_bf16_f32) (shapeCast S256x64 P2 shapeCasts_S256x64_S256x64)
    (hidBlock P0 P1 P3 P4 P5 P6 P7 P8) P9 P10 P11 P12 P13

/-- Entry (r, n) of the main cell's pre-activation block is the one-row step's pre-activation at row r. -/
theorem mainPre_stored (P0 P1 : FVec Ideal S256x1024 .f32) (P2 : FVec Ideal S256x64 .bf16) (P3 : FVec Ideal S256x256 .f32)
    (P4 P5 : FVec Ideal S1024x1024 .bf16) (P6 : FVec Ideal S256x1024 .bf16) (P7 : FVec Ideal S1x1024 .f32) (P8 : FVec Ideal S256x256 .f32)
    (P9 P10 : FVec Ideal S1024x4096 .bf16) (P11 P12 P13 : FVec Ideal S64x4096 .bf16) (r : Fin 256) (n : Fin 4096) :
    preBlock P0 P1 P2 P3 P4 P5 P6 P7 P8 P9 P10 P11 P12 P13 (ix2 r n)
      = rowMainPre (blockWeights P2 P4 P5 P6 P7 P9 P10 P11 P12 P13) (row P0 r) (row P1 r) (row P3 r) (row P8 r) n := by
  have hP : row (k0_pay3 (F := Ideal) P0 P1 P3 P4 P5 P6 P7) r
      = smallPre (matT P4) (matT P5) (matT P6) (fun n => P7 (ix2 (0 : Fin 1) n)) (row P0 r) (row P1 r) (row P3 r) :=
    funext fun n => smallPre_block P0 P1 P3 P4 P5 P6 P7 r n
  have hD : row (hidBlock P0 P1 P3 P4 P5 P6 P7 P8) r
      = smallH (smallPre (matT P4) (matT P5) (matT P6) (fun n => P7 (ix2 (0 : Fin 1) n)) (row P0 r) (row P1 r) (row P3 r)) (row P8 r) := by
    rw [← hP]
    exact funext fun q => smallH_block (k0_pay3 P0 P1 P3 P4 P5 P6 P7) P8 r q
  refine (mainPre_block _ _ _ _ P9 P10 P11 P12 P13 r n).trans ?_
  rw [hD, shapeCast_self]
  rfl

/-- The main cell's new state block at (r, q) is the one-row step at row r. -/
theorem mainC_stored (P0 P1 : FVec Ideal S256x1024 .f32) (P2 : FVec Ideal S256x64 .bf16) (P3 : FVec Ideal S256x256 .f32)
    (P4 P5 : FVec Ideal S1024x1024 .bf16) (P6 : FVec Ideal S256x1024 .bf16) (P7 : FVec Ideal S1x1024 .f32) (P8 : FVec Ideal S256x256 .f32)
    (P9 P10 : FVec Ideal S1024x4096 .bf16) (P11 P12 P13 : FVec Ideal S64x4096 .bf16) (P14 : FVec Ideal S256x1024 .f32) (r : Fin 256) (q : Fin 1024) :
    E16 (F := Ideal) P0 P1 P2 P3 P4 P5 P6 P7 P8 P9 P10 P11 P12 P13 P14 (ix2 r q)
      = rowMainC (blockWeights P2 P4 P5 P6 P7 P9 P10 P11 P12 P13) (row P0 r) (row P1 r) (row P14 r) (row P3 r) (row P8 r) q := by
  have hp := fun n => mainPre_stored P0 P1 P2 P3 P4 P5 P6 P7 P8 P9 P10 P11 P12 P13 r n
  have i0 : ix16_0 (ix2 r q) = ix2 (n0 := 256) r (⟨1024 + q.val, by omega⟩ : Fin 4096) := funext fun a => Fin.ext (by
    match a with | ⟨0, _⟩ => rfl | ⟨1, _⟩ => exact Nat.add_comm _ _)
  have i1 : ix16_1 (ix2 r q) = ix2 r q := funext fun a => Fin.ext (by match a with | ⟨0, _⟩ => rfl | ⟨1, _⟩ => rfl)
  have i2 : ix16_2 (ix2 r q) = ix2 (n0 := 256) r (⟨q.val, by omega⟩ : Fin 4096) := funext fun a => Fin.ext (by
    match a with | ⟨0, _⟩ => rfl | ⟨1, _⟩ => rfl)
  have i3 : ix16_3 (ix2 r q) = ix2 (n0 := 256) r (⟨2048 + q.val, by omega⟩ : Fin 4096) := funext fun a => Fin.ext (by
    match a with | ⟨0, _⟩ => rfl | ⟨1, _⟩ => exact Nat.add_comm _ _)
  show FloatOps.addf (FloatOps.mulf (FloatOps.logistic (preBlock P0 P1 P2 P3 P4 P5 P6 P7 P8 P9 P10 P11 P12 P13 (ix16_0 (ix2 r q)))) (P14 (ix16_1 (ix2 r q))))
      (FloatOps.mulf (FloatOps.logistic (preBlock P0 P1 P2 P3 P4 P5 P6 P7 P8 P9 P10 P11 P12 P13 (ix16_2 (ix2 r q))))
        (FloatOps.tanh (preBlock P0 P1 P2 P3 P4 P5 P6 P7 P8 P9 P10 P11 P12 P13 (ix16_3 (ix2 r q))))) = _
  rw [i0, i1, i2, i3, hp, hp, hp]
  rfl

/-- The main cell's new hidden block at (r, q) is the one-row step at row r. -/
theorem mainH_stored (P0 P1 : FVec Ideal S256x1024 .f32) (P2 : FVec Ideal S256x64 .bf16) (P3 : FVec Ideal S256x256 .f32)
    (P4 P5 : FVec Ideal S1024x1024 .bf16) (P6 : FVec Ideal S256x1024 .bf16) (P7 : FVec Ideal S1x1024 .f32) (P8 : FVec Ideal S256x256 .f32)
    (P9 P10 : FVec Ideal S1024x4096 .bf16) (P11 P12 P13 : FVec Ideal S64x4096 .bf16) (P14 : FVec Ideal S256x1024 .f32) (r : Fin 256) (q : Fin 1024) :
    E15 (F := Ideal) P0 P1 P2 P3 P4 P5 P6 P7 P8 P9 P10 P11 P12 P13 P14 (ix2 r q)
      = rowMainH (blockWeights P2 P4 P5 P6 P7 P9 P10 P11 P12 P13) (row P0 r) (row P1 r) (row P14 r) (row P3 r) (row P8 r) q := by
  have hp := fun n => mainPre_stored P0 P1 P2 P3 P4 P5 P6 P7 P8 P9 P10 P11 P12 P13 r n
  have i0 : ix15_0 (ix2 r q) = ix2 (n0 := 256) r (⟨3072 + q.val, by omega⟩ : Fin 4096) := funext fun a => Fin.ext (by
    match a with | ⟨0, _⟩ => rfl | ⟨1, _⟩ => exact Nat.add_comm _ _)
  have i1 : ix15_1 (ix2 r q) = ix2 (n0 := 256) r (⟨1024 + q.val, by omega⟩ : Fin 4096) := funext fun a => Fin.ext (by
    match a with | ⟨0, _⟩ => rfl | ⟨1, _⟩ => exact Nat.add_comm _ _)
  have i2 : ix15_2 (ix2 r q) = ix2 r q := funext fun a => Fin.ext (by match a with | ⟨0, _⟩ => rfl | ⟨1, _⟩ => rfl)
  have i3 : ix15_3 (ix2 r q) = ix2 (n0 := 256) r (⟨q.val, by omega⟩ : Fin 4096) := funext fun a => Fin.ext (by
    match a with | ⟨0, _⟩ => rfl | ⟨1, _⟩ => rfl)
  have i4 : ix15_4 (ix2 r q) = ix2 (n0 := 256) r (⟨2048 + q.val, by omega⟩ : Fin 4096) := funext fun a => Fin.ext (by
    match a with | ⟨0, _⟩ => rfl | ⟨1, _⟩ => exact Nat.add_comm _ _)
  show FloatOps.mulf (FloatOps.logistic (preBlock P0 P1 P2 P3 P4 P5 P6 P7 P8 P9 P10 P11 P12 P13 (ix15_0 (ix2 r q))))
      (FloatOps.tanh (FloatOps.addf
        (FloatOps.mulf (FloatOps.logistic (preBlock P0 P1 P2 P3 P4 P5 P6 P7 P8 P9 P10 P11 P12 P13 (ix15_1 (ix2 r q)))) (P14 (ix15_2 (ix2 r q))))
        (FloatOps.mulf (FloatOps.logistic (preBlock P0 P1 P2 P3 P4 P5 P6 P7 P8 P9 P10 P11 P12 P13 (ix15_3 (ix2 r q))))
          (FloatOps.tanh (preBlock P0 P1 P2 P3 P4 P5 P6 P7 P8 P9 P10 P11 P12 P13 (ix15_4 (ix2 r q))))))) = _
  rw [i0, i1, i2, i3, i4, hp, hp, hp, hp]
  rfl

end Cert.KernelRow

end
-- ==== Proof.KernelBlocks.lean ====
/-
  From the kernel's blocks to its four result arrays.

  The grid has 16 points; point t handles batch rows 256 t ... 256 t + 255.  The five batch-indexed inputs and the four
  outputs are cut into blocks of 256 rows, block t at point t; the ten weight inputs are whole-array blocks, the same at
  every point.  Before the region the host wrote each weight transposed to (input unit, output unit) (W_ih first cut into
  its two halves of input units), and the bias as a single row; a change of float format is the identity.  So the
  body at point t sees rows 256 t + r of the batch arrays and, read back (output unit, input unit), the parameter
  arrays themselves; by the one-block lemmas each stored block is the one-row step at those rows; the 16 blocks cover
  each result array.
-/
import proofs.«167938_j35691178230152_2_alg».proof.Proof.Gen.KernelIdeal.Value
import proofs.«167938_j35691178230152_2_alg».proof.Proof.HyperCell
import proofs.«167938_j35691178230152_2_alg».proof.Proof.KernelRow
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelBlocks

open Cert.KernelIdeal Cert.KernelIdeal.Gen Cert.KernelIdeal.Value Cert.HyperCell Cert.KernelRow
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- The printed index maps, decided over the 16 points: a batch-indexed window's block index is (t, 0), a weight
    window's is (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = t.val ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0
    ∧ win0_18.index t (0 : Fin 2) = t.val ∧ win0_18.index t (1 : Fin 2) = 0 :=
  (by decide +kernel : ∀ t : Fin grid0.N, _)

/-- The batch row that row r of point t's block is. -/
def brow (t : Fin cfg0.N) (r : Fin 256) : Fin 4096 :=
  ⟨256 * t.val + r.val, by have h := t.isLt; have hN : cfg0.N = 16 := N_0; omega⟩

/-! ## The weight arrays the host wrote before the region -/

theorem V_main_v1 (c : Dev nD) : (V m c main_v1 : S1024x4096.Idx → EReal)
    = (truncf (F := Ideal) .bf16 (transpose S1024x4096 [1, 0] (m ((c : Thread nD τ).loc main_arg5) : S4096x1024.Idx → EReal) transposes_S4096x1024_S1024x4096_1_0) bitsLt_bf16_f32 : S1024x4096.Idx → EReal) := by
  dsimp only [V, hostOps0]; after_results

theorem V_main_v3 (c : Dev nD) : (V m c main_v3 : S1024x4096.Idx → EReal)
    = (truncf (F := Ideal) .bf16 (transpose S1024x4096 [1, 0] (m ((c : Thread nD τ).loc main_arg6) : S4096x1024.Idx → EReal) transposes_S4096x1024_S1024x4096_1_0) bitsLt_bf16_f32 : S1024x4096.Idx → EReal) := by
  dsimp only [V, hostOps0]; after_results

theorem V_main_v6 (c : Dev nD) : (V m c main_v6 : S1024x1024.Idx → EReal)
    = (truncf (F := Ideal) .bf16 (transpose S1024x1024 [1, 0] (extractStridedSlice S1024x1024 ![0, 0] (m ((c : Thread nD τ).loc main_arg7) : S1024x2048.Idx → EReal) slices_S1024x2048_S1024x1024_0_0) transposes_S1024x1024_S1024x1024_1_0) bitsLt_bf16_f32 : S1024x1024.Idx → EReal) := by
  dsimp only [V, hostOps0]; after_results

theorem V_main_v9 (c : Dev nD) : (V m c main_v9 : S1024x1024.Idx → EReal)
    = (truncf (F := Ideal) .bf16 (transpose S1024x1024 [1, 0] (extractStridedSlice S1024x1024 ![0, 1024] (m ((c : Thread nD τ).loc main_arg7) : S1024x2048.Idx → EReal) slices_S1024x2048_S1024x1024_0_1024) transposes_S1024x1024_S1024x1024_1_0) bitsLt_bf16_f32 : S1024x1024.Idx → EReal) := by
  dsimp only [V, hostOps0]; after_results

theorem V_main_v11 (c : Dev nD) : (V m c main_v11 : S256x1024.Idx → EReal)
    = (truncf (F := Ideal) .bf16 (transpose S256x1024 [1, 0] (m ((c : Thread nD τ).loc main_arg8) : S1024x256.Idx → EReal) transposes_S1024x256_S256x1024_1_0) bitsLt_bf16_f32 : S256x1024.Idx → EReal) := by
  dsimp only [V, hostOps0]; after_results

theorem V_main_v13 (c : Dev nD) : (V m c main_v13 : S256x64.Idx → EReal)
    = (truncf (F := Ideal) .bf16 (transpose S256x64 [1, 0] (m ((c : Thread nD τ).loc main_arg9) : S64x256.Idx → EReal) transposes_S64x256_S256x64_1_0) bitsLt_bf16_f32 : S256x64.Idx → EReal) := by
  dsimp only [V, hostOps0]; after_results

theorem V_main_v15 (c : Dev nD) : (V m c main_v15 : S64x4096.Idx → EReal)
    = (truncf (F := Ideal) .bf16 (transpose S64x4096 [1, 0] (m ((c : Thread nD τ).loc main_arg10) : S4096x64.Idx → EReal) transposes_S4096x64_S64x4096_1_0) bitsLt_bf16_f32 : S64x4096.Idx → EReal) := by
  dsimp only [V, hostOps0]; after_results

theorem V_main_v17 (c : Dev nD) : (V m c main_v17 : S64x4096.Idx → EReal)
    = (truncf (F := Ideal) .bf16 (transpose S64x4096 [1, 0] (m ((c : Thread nD τ).loc main_arg11) : S4096x64.Idx → EReal) transposes_S4096x64_S64x4096_1_0) bitsLt_bf16_f32 : S64x4096.Idx → EReal) := by
  dsimp only [V, hostOps0]; after_results

theorem V_main_v19 (c : Dev nD) : (V m c main_v19 : S64x4096.Idx → EReal)
    = (truncf (F := Ideal) .bf16 (transpose S64x4096 [1, 0] (m ((c : Thread nD τ).loc main_arg12) : S4096x64.Idx → EReal) transposes_S4096x64_S64x4096_1_0) bitsLt_bf16_f32 : S64x4096.Idx → EReal) := by
  dsimp only [V, hostOps0]; after_results

theorem V_main_v20 (c : Dev nD) : (V m c main_v20 : S1x1024.Idx → EReal)
    = (shapeCast S1x1024 (m ((c : Thread nD τ).loc main_arg13) : S1024.Idx → EReal) shapeCasts_S1024_S1x1024 : S1x1024.Idx → EReal) := by
  dsimp only [V, hostOps0]; after_results; rfl

/-! ## The batch-indexed blocks -/

/-- Row r of window 0's block at point t is row 256 t + r of its array. -/
theorem blk0_row (c : Dev nD) (t : Fin cfg0.N) (r : Fin 256) :
    row (iblk m c 0 t : S256x1024.Idx → EReal) r = row (m ((c : Thread nD τ).loc main_arg0) : S4096x1024.Idx → EReal) (brow t r) := by
  have hf := idx_facts t
  have h0 : win0_0.index t (0 : Fin 2) = t.val := hf.1
  have h1 : win0_0.index t (1 : Fin 2) = 0 := hf.2.1
  funext k
  show iblk m c 0 t (ix2 r k) = m ((c : Thread nD τ).loc main_arg0) (ix2 (brow t r) k)
  unfold iblk
  rw [View.read_apply]
  show V m c main_arg0 _ = _
  rw [V_main_arg0]
  refine congrArg _ (funext fun a => Fin.ext ?_)
  match a with
  | ⟨0, _⟩ => show win0_0.index t (0 : Fin 2) * 256 + 1 * r.val = 256 * t.val + r.val; rw [h0]; omega
  | ⟨1, _⟩ => show win0_0.index t (1 : Fin 2) * 1024 + 1 * k.val = k.val; rw [h1]; omega

/-- Row r of window 1's block at point t is row 256 t + r of its array. -/
theorem blk1_row (c : Dev nD) (t : Fin cfg0.N) (r : Fin 256) :
    row (iblk m c 1 t : S256x1024.Idx → EReal) r = row (m ((c : Thread nD τ).loc main_arg1) : S4096x1024.Idx → EReal) (brow t r) := by
  have hf := idx_facts t
  have h0 : win0_1.index t (0 : Fin 2) = t.val := hf.2.2.1
  have h1 : win0_1.index t (1 : Fin 2) = 0 := hf.2.2.2.1
  funext k
  show iblk m c 1 t (ix2 r k) = m ((c : Thread nD τ).loc main_arg1) (ix2 (brow t r) k)
  unfold iblk
  rw [View.read_apply]
  show V m c main_arg1 _ = _
  rw [V_main_arg1]
  refine congrArg _ (funext fun a => Fin.ext ?_)
  match a with
  | ⟨0, _⟩ => show win0_1.index t (0 : Fin 2) * 256 + 1 * r.val = 256 * t.val + r.val; rw [h0]; omega
  | ⟨1, _⟩ => show win0_1.index t (1 : Fin 2) * 1024 + 1 * k.val = k.val; rw [h1]; omega

/-- Row r of window 2's block at point t is row 256 t + r of its array. -/
theorem blk2_row (c : Dev nD) (t : Fin cfg0.N) (r : Fin 256) :
    row (iblk m c 2 t : S256x1024.Idx → EReal) r = row (m ((c : Thread nD τ).loc main_arg2) : S4096x1024.Idx → EReal) (brow t r) := by
  have hf := idx_facts t
  have h0 : win0_2.index t (0 : Fin 2) = t.val := hf.2.2.2.2.1
  have h1 : win0_2.index t (1 : Fin 2) = 0 := hf.2.2.2.2.2.1
  funext k
  show iblk m c 2 t (ix2 r k) = m ((c : Thread nD τ).loc main_arg2) (ix2 (brow t r) k)
  unfold iblk
  rw [View.read_apply]
  show V m c main_arg2 _ = _
  rw [V_main_arg2]
  refine congrArg _ (funext fun a => Fin.ext ?_)
  match a with
  | ⟨0, _⟩ => show win0_2.index t (0 : Fin 2) * 256 + 1 * r.val = 256 * t.val + r.val; rw [h0]; omega
  | ⟨1, _⟩ => show win0_2.index t (1 : Fin 2) * 1024 + 1 * k.val = k.val; rw [h1]; omega

/-- Row r of window 3's block at point t is row 256 t + r of its array. -/
theorem blk3_row (c : Dev nD) (t : Fin cfg0.N) (r : Fin 256) :
    row (iblk m c 3 t : S256x256.Idx → EReal) r = row (m ((c : Thread nD τ).loc main_arg3) : S4096x256.Idx → EReal) (brow t r) := by
  have hf := idx_facts t
  have h0 : win0_3.index t (0 : Fin 2) = t.val := hf.2.2.2.2.2.2.1
  have h1 : win0_3.index t (1 : Fin 2) = 0 := hf.2.2.2.2.2.2.2.1
  funext k
  show iblk m c 3 t (ix2 r k) = m ((c : Thread nD τ).loc main_arg3) (ix2 (brow t r) k)
  unfold iblk
  rw [View.read_apply]
  show V m c main_arg3 _ = _
  rw [V_main_arg3]
  refine congrArg _ (funext fun a => Fin.ext ?_)
  match a with
  | ⟨0, _⟩ => show win0_3.index t (0 : Fin 2) * 256 + 1 * r.val = 256 * t.val + r.val; rw [h0]; omega
  | ⟨1, _⟩ => show win0_3.index t (1 : Fin 2) * 256 + 1 * k.val = k.val; rw [h1]; omega

/-- Row r of window 4's block at point t is row 256 t + r of its array. -/
theorem blk4_row (c : Dev nD) (t : Fin cfg0.N) (r : Fin 256) :
    row (iblk m c 4 t : S256x256.Idx → EReal) r = row (m ((c : Thread nD τ).loc main_arg4) : S4096x256.Idx → EReal) (brow t r) := by
  have hf := idx_facts t
  have h0 : win0_4.index t (0 : Fin 2) = t.val := hf.2.2.2.2.2.2.2.2.1
  have h1 : win0_4.index t (1 : Fin 2) = 0 := hf.2.2.2.2.2.2.2.2.2.1
  funext k
  show iblk m c 4 t (ix2 r k) = m ((c : Thread nD τ).loc main_arg4) (ix2 (brow t r) k)
  unfold iblk
  rw [View.read_apply]
  show V m c main_arg4 _ = _
  rw [V_main_arg4]
  refine congrArg _ (funext fun a => Fin.ext ?_)
  match a with
  | ⟨0, _⟩ => show win0_4.index t (0 : Fin 2) * 256 + 1 * r.val = 256 * t.val + r.val; rw [h0]; omega
  | ⟨1, _⟩ => show win0_4.index t (1 : Fin 2) * 256 + 1 * k.val = k.val; rw [h1]; omega

/-! ## The whole-array blocks, and the weights the body sees -/

/-- Window 5's block is its whole array at every point. -/
theorem blk5 (c : Dev nD) (t : Fin cfg0.N) : (iblk m c 5 t : S1024x4096.Idx → EReal) = V m c main_v1 := by
  have hf := idx_facts t
  have h0 : win0_5.index t (0 : Fin 2) = 0 := hf.2.2.2.2.2.2.2.2.2.2.1
  have h1 : win0_5.index t (1 : Fin 2) = 0 := hf.2.2.2.2.2.2.2.2.2.2.2.1
  funext y
  unfold iblk
  rw [View.read_apply]
  show V m c main_v1 _ = V m c main_v1 y
  refine congrArg _ (funext fun a => Fin.ext ?_)
  match a with
  | ⟨0, _⟩ => show win0_5.index t (0 : Fin 2) * 1024 + 1 * (y 0).val = (y 0).val; rw [h0]; omega
  | ⟨1, _⟩ => show win0_5.index t (1 : Fin 2) * 4096 + 1 * (y 1).val = (y 1).val; rw [h1]; omega

/-- Window 6's block is its whole array at every point. -/
theorem blk6 (c : Dev nD) (t : Fin cfg0.N) : (iblk m c 6 t : S1024x4096.Idx → EReal) = V m c main_v3 := by
  have hf := idx_facts t
  have h0 : win0_6.index t (0 : Fin 2) = 0 := hf.2.2.2.2.2.2.2.2.2.2.2.2.1
  have h1 : win0_6.index t (1 : Fin 2) = 0 := hf.2.2.2.2.2.2.2.2.2.2.2.2.2.1
  funext y
  unfold iblk
  rw [View.read_apply]
  show V m c main_v3 _ = V m c main_v3 y
  refine congrArg _ (funext fun a => Fin.ext ?_)
  match a with
  | ⟨0, _⟩ => show win0_6.index t (0 : Fin 2) * 1024 + 1 * (y 0).val = (y 0).val; rw [h0]; omega
  | ⟨1, _⟩ => show win0_6.index t (1 : Fin 2) * 4096 + 1 * (y 1).val = (y 1).val; rw [h1]; omega

/-- Window 7's block is its whole array at every point. -/
theorem blk7 (c : Dev nD) (t : Fin cfg0.N) : (iblk m c 7 t : S1024x1024.Idx → EReal) = V m c main_v6 := by
  have hf := idx_facts t
  have h0 : win0_7.index t (0 : Fin 2) = 0 := hf.2.2.2.2.2.2.2.2.2.2.2.2.2.2.1
  have h1 : win0_7.index t (1 : Fin 2) = 0 := hf.2.2.2.2.2.2.2.2.2.2.2.2.2.2.2.1
  funext y
  unfold iblk
  rw [View.read_apply]
  show V m c main_v6 _ = V m c main_v6 y
  refine congrArg _ (funext fun a => Fin.ext ?_)
  match a with
  | ⟨0, _⟩ => show win0_7.index t (0 : Fin 2) * 1024 + 1 * (y 0).val = (y 0).val; rw [h0]; omega
  | ⟨1, _⟩ => show win0_7.index t (1 : Fin 2) * 1024 + 1 * (y 1).val = (y 1).val; rw [h1]; omega

/-- Window 8's block is its whole array at every point. -/
theorem blk8 (c : Dev nD) (t : Fin cfg0.N) : (iblk m c 8 t : S1024x1024.Idx → EReal) = V m c main_v9 := by
  have hf := idx_facts t
  have h0 : win0_8.index t (0 : Fin 2) = 0 := hf.2.2.2.2.2.2.2.2.2.2.2.2.2.2.2.2.1
  have h1 : win0_8.index t (1 : Fin 2) = 0 := hf.2.2.2.2.2.2.2.2.2.2.2.2.2.2.2.2.2.1
  funext y
  unfold iblk
  rw [View.read_apply]
  show V m c main_v9 _ = V m c main_v9 y
  refine congrArg _ (funext fun a => Fin.ext ?_)
  match a with
  | ⟨0, _⟩ => show win0_8.index t (0 : Fin 2) * 1024 + 1 * (y 0).val = (y 0).val; rw [h0]; omega
  | ⟨1, _⟩ => show win0_8.index t (1 : Fin 2) * 1024 + 1 * (y 1).val = (y 1).val; rw [h1]; omega

/-- Window 9's block is its whole array at every point. -/
theorem blk9 (c : Dev nD) (t : Fin cfg0.N) : (iblk m c 9 t : S256x1024.Idx → EReal) = V m c main_v11 := by
  have hf := idx_facts t
  have h0 : win0_9.index t (0 : Fin 2) = 0 := hf.2.2.2.2.2.2.2.2.2.2.2.2.2.2.2.2.2.2.1
  have h1 : win0_9.index t (1 : Fin 2) = 0 := hf.2.2.2.2.2.2.2.2.2.2.2.2.2.2.2.2.2.2.2.1
  funext y
  unfold iblk
  rw [View.read_apply]
  show V m c main_v11 _ = V m c main_v11 y
  refine congrArg _ (funext fun a => Fin.ext ?_)
  match a with
  | ⟨0, _⟩ => show win0_9.index t (0 : Fin 2) * 256 + 1 * (y 0).val = (y 0).val; rw [h0]; omega
  | ⟨1, _⟩ => show win0_9.index t (1 : Fin 2) * 1024 + 1 * (y 1).val = (y 1).val; rw [h1]; omega

/-- Window 10's block is its whole array at every point. -/
theorem blk10 (c : Dev nD) (t : Fin cfg0.N) : (iblk m c 10 t : S256x64.Idx → EReal) = V m c main_v13 := by
  have hf := idx_facts t
  have h0 : win0_10.index t (0 : Fin 2) = 0 := hf.2.2.2.2.2.2.2.2.2.2.2.2.2.2.2.2.2.2.2.2.1
  have h1 : win0_10.index t (1 : Fin 2) = 0 := hf.2.2.2.2.2.2.2.2.2.2.2.2.2.2.2.2.2.2.2.2.2.1
  funext y
  unfold iblk
  rw [View.read_apply]
  show V m c main_v13 _ = V m c main_v13 y
  refine congrArg _ (funext fun a => Fin.ext ?_)
  match a with
  | ⟨0, _⟩ => show win0_10.index t (0 : Fin 2) * 256 + 1 * (y 0).val = (y 0).val; rw [h0]; omega
  | ⟨1, _⟩ => show win0_10.index t (1 : Fin 2) * 64 + 1 * (y 1).val = (y 1).val; rw [h1]; omega

/-- Window 11's block is its whole array at every point. -/
theorem blk11 (c : Dev nD) (t : Fin cfg0.N) : (iblk m c 11 t : S64x4096.Idx → EReal) = V m c main_v15 := by
  have hf := idx_facts t
  have h0 : win0_11.index t (0 : Fin 2) = 0 := hf.2.2.2.2.2.2.2.2.2.2.2.2.2.2.2.2.2.2.2.2.2.2.1
  have h1 : win0_11.index t (1 : Fin 2) = 0 := hf.2.2.2.2.2.2.2.2.2.2.2.2.2.2.2.2.2.2.2.2.2.2.2.1
  funext y
  unfold iblk
  rw [View.read_apply]
  show V m c main_v15 _ = V m c main_v15 y
  refine congrArg _ (funext fun a => Fin.ext ?_)
  match a with
  | ⟨0, _⟩ => show win0_11.index t (0 : Fin 2) * 64 + 1 * (y 0).val = (y 0).val; rw [h0]; omega
  | ⟨1, _⟩ => show win0_11.index t (1 : Fin 2) * 4096 + 1 * (y 1).val = (y 1).val; rw [h1]; omega

/-- Window 12's block is its whole array at every point. -/
theorem blk12 (c : Dev nD) (t : Fin cfg0.N) : (iblk m c 12 t : S64x4096.Idx → EReal) = V m c main_v17 := by
  have hf := idx_facts t
  have h0 : win0_12.index t (0 : Fin 2) = 0 := hf.2.2.2.2.2.2.2.2.2.2.2.2.2.2.2.2.2.2.2.2.2.2.2.2.1
  have h1 : win0_12.index t (1 : Fin 2) = 0 := hf.2.2.2.2.2.2.2.2.2.2.2.2.2.2.2.2.2.2.2.2.2.2.2.2.2.1
  funext y
  unfold iblk
  rw [View.read_apply]
  show V m c main_v17 _ = V m c main_v17 y
  refine congrArg _ (funext fun a => Fin.ext ?_)
  match a with
  | ⟨0, _⟩ => show win0_12.index t (0 : Fin 2) * 64 + 1 * (y 0).val = (y 0).val; rw [h0]; omega
  | ⟨1, _⟩ => show win0_12.index t (1 : Fin 2) * 4096 + 1 * (y 1).val = (y 1).val; rw [h1]; omega

/-- Window 13's block is its whole array at every point. -/
theorem blk13 (c : Dev nD) (t : Fin cfg0.N) : (iblk m c 13 t : S64x4096.Idx → EReal) = V m c main_v19 := by
  have hf := idx_facts t
  have h0 : win0_13.index t (0 : Fin 2) = 0 := hf.2.2.2.2.2.2.2.2.2.2.2.2.2.2.2.2.2.2.2.2.2.2.2.2.2.2.1
  have h1 : win0_13.index t (1 : Fin 2) = 0 := hf.2.2.2.2.2.2.2.2.2.2.2.2.2.2.2.2.2.2.2.2.2.2.2.2.2.2.2.1
  funext y
  unfold iblk
  rw [View.read_apply]
  show V m c main_v19 _ = V m c main_v19 y
  refine congrArg _ (funext fun a => Fin.ext ?_)
  match a with
  | ⟨0, _⟩ => show win0_13.index t (0 : Fin 2) * 64 + 1 * (y 0).val = (y 0).val; rw [h0]; omega
  | ⟨1, _⟩ => show win0_13.index t (1 : Fin 2) * 4096 + 1 * (y 1).val = (y 1).val; rw [h1]; omega

/-- Window 14's block is its whole array at every point. -/
theorem blk14 (c : Dev nD) (t : Fin cfg0.N) : (iblk m c 14 t : S1x1024.Idx → EReal) = V m c main_v20 := by
  have hf := idx_facts t
  have h0 : win0_14.index t (0 : Fin 2) = 0 := hf.2.2.2.2.2.2.2.2.2.2.2.2.2.2.2.2.2.2.2.2.2.2.2.2.2.2.2.2.1
  have h1 : win0_14.index t (1 : Fin 2) = 0 := hf.2.2.2.2.2.2.2.2.2.2.2.2.2.2.2.2.2.2.2.2.2.2.2.2.2.2.2.2.2.1
  funext y
  unfold iblk
  rw [View.read_apply]
  show V m c main_v20 _ = V m c main_v20 y
  refine congrArg _ (funext fun a => Fin.ext ?_)
  match a with
  | ⟨0, _⟩ => show win0_14.index t (0 : Fin 2) * 1 + 1 * (y 0).val = (y 0).val; rw [h0]; omega
  | ⟨1, _⟩ => show win0_14.index t (1 : Fin 2) * 1024 + 1 * (y 1).val = (y 1).val; rw [h1]; omega

/-- Read (output unit, input unit), window 5's weights are the parameter array `main_arg5`. -/
theorem w5 (c : Dev nD) (t : Fin cfg0.N) : matT (iblk m c 5 t : S1024x4096.Idx → EReal) = mat (m ((c : Thread nD τ).loc main_arg5)) := by
  rw [blk5 m c t, V_main_v1]
  funext n k
  exact transpose_ix2_apply (m ((c : Thread nD τ).loc main_arg5)) transposes_S4096x1024_S1024x4096_1_0 k n

/-- Read (output unit, input unit), window 6's weights are the parameter array `main_arg6`. -/
theorem w6 (c : Dev nD) (t : Fin cfg0.N) : matT (iblk m c 6 t : S1024x4096.Idx → EReal) = mat (m ((c : Thread nD τ).loc main_arg6)) := by
  rw [blk6 m c t, V_main_v3]
  funext n k
  exact transpose_ix2_apply (m ((c : Thread nD τ).loc main_arg6)) transposes_S4096x1024_S1024x4096_1_0 k n

/-- Read (output unit, input unit), window 7's weights are W_ih's first 1024 input units. -/
theorem w7 (c : Dev nD) (t : Fin cfg0.N) : matT (iblk m c 7 t : S1024x1024.Idx → EReal)
    = fun n k => (m ((c : Thread nD τ).loc main_arg7)) (ix2 n (⟨k.val, by omega⟩ : Fin 2048)) := by
  rw [blk7 m c t, V_main_v6]
  funext n k
  refine (transpose_ix2_apply (extractStridedSlice S1024x1024 ![0, 0] (m ((c : Thread nD τ).loc main_arg7)) slices_S1024x2048_S1024x1024_0_0)
    transposes_S1024x1024_S1024x1024_1_0 k n).trans ?_
  refine (slice2_axis1_eq 0 (m ((c : Thread nD τ).loc main_arg7)) slices_S1024x2048_S1024x1024_0_0 n k).trans ?_
  simp only [Nat.zero_add]

/-- Read (output unit, input unit), window 8's weights are W_ih's last 1024 input units. -/
theorem w8 (c : Dev nD) (t : Fin cfg0.N) : matT (iblk m c 8 t : S1024x1024.Idx → EReal)
    = fun n k => (m ((c : Thread nD τ).loc main_arg7)) (ix2 n (⟨1024 + k.val, by omega⟩ : Fin 2048)) := by
  rw [blk8 m c t, V_main_v9]
  funext n k
  refine (transpose_ix2_apply (extractStridedSlice S1024x1024 ![0, 1024] (m ((c : Thread nD τ).loc main_arg7)) slices_S1024x2048_S1024x1024_0_1024)
    transposes_S1024x1024_S1024x1024_1_0 k n).trans ?_
  exact slice2_axis1_eq 1024 (m ((c : Thread nD τ).loc main_arg7)) slices_S1024x2048_S1024x1024_0_1024 n k

/-- Read (output unit, input unit), window 9's weights are the parameter array `main_arg8`. -/
theorem w9 (c : Dev nD) (t : Fin cfg0.N) : matT (iblk m c 9 t : S256x1024.Idx → EReal) = mat (m ((c : Thread nD τ).loc main_arg8)) := by
  rw [blk9 m c t, V_main_v11]
  funext n k
  exact transpose_ix2_apply (m ((c : Thread nD τ).loc main_arg8)) transposes_S1024x256_S256x1024_1_0 k n

/-- Read (output unit, input unit), window 10's weights are the parameter array `main_arg9`. -/
theorem w10 (c : Dev nD) (t : Fin cfg0.N) : matT (iblk m c 10 t : S256x64.Idx → EReal) = mat (m ((c : Thread nD τ).loc main_arg9)) := by
  rw [blk10 m c t, V_main_v13]
  funext n k
  exact transpose_ix2_apply (m ((c : Thread nD τ).loc main_arg9)) transposes_S64x256_S256x64_1_0 k n

/-- Read (output unit, input unit), window 11's weights are the parameter array `main_arg10`. -/
theorem w11 (c : Dev nD) (t : Fin cfg0.N) : matT (iblk m c 11 t : S64x4096.Idx → EReal) = mat (m ((c : Thread nD τ).loc main_arg10)) := by
  rw [blk11 m c t, V_main_v15]
  funext n k
  exact transpose_ix2_apply (m ((c : Thread nD τ).loc main_arg10)) transposes_S4096x64_S64x4096_1_0 k n

/-- Read (output unit, input unit), window 12's weights are the parameter array `main_arg11`. -/
theorem w12 (c : Dev nD) (t : Fin cfg0.N) : matT (iblk m c 12 t : S64x4096.Idx → EReal) = mat (m ((c : Thread nD τ).loc main_arg11)) := by
  rw [blk12 m c t, V_main_v17]
  funext n k
  exact transpose_ix2_apply (m ((c : Thread nD τ).loc main_arg11)) transposes_S4096x64_S64x4096_1_0 k n

/-- Read (output unit, input unit), window 13's weights are the parameter array `main_arg12`. -/
theorem w13 (c : Dev nD) (t : Fin cfg0.N) : matT (iblk m c 13 t : S64x4096.Idx → EReal) = mat (m ((c : Thread nD τ).loc main_arg12)) := by
  rw [blk13 m c t, V_main_v19]
  funext n k
  exact transpose_ix2_apply (m ((c : Thread nD τ).loc main_arg12)) transposes_S4096x64_S64x4096_1_0 k n

/-- Window 14's one row is the bias vector. -/
theorem w14 (c : Dev nD) (t : Fin cfg0.N) : (fun n : Fin 1024 => (iblk m c 14 t : S1x1024.Idx → EReal) (ix2 (0 : Fin 1) n))
    = fun n => (m ((c : Thread nD τ).loc main_arg13)) (ix1 n) := by
  rw [blk14 m c t, V_main_v20]
  funext n
  exact shapeCast_a_1a_apply (m ((c : Thread nD τ).loc main_arg13)) shapeCasts_S1024_S1x1024 (0 : Fin 1) n

/-- The weights read off the parameter arrays as launched. -/
def specW (c : Dev nD) : Weights :=
  weightsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- At every point the body's weight blocks, read (output unit, input unit), are the parameter arrays' weights. -/
theorem blockWeights_eq (c : Dev nD) (t : Fin cfg0.N) :
    blockWeights (iblk m c 10 t) (iblk m c 7 t) (iblk m c 8 t) (iblk m c 9 t) (iblk m c 14 t) (iblk m c 5 t) (iblk m c 6 t)
      (iblk m c 11 t) (iblk m c 12 t) (iblk m c 13 t) = specW m c := by
  unfold blockWeights specW weightsOf
  rw [w5 m c t, w6 m c t, w7 m c t, w8 m c t, w9 m c t, w10 m c t, w11 m c t, w12 m c t, w13 m c t, w14 m c t]

/-! ## Each write-back is a block of the specification's array; the blocks cover it -/

/-- The specification's array for output window 15, of the argument arrays as launched. -/
abbrev resMainH (c : Dev nD) : S4096x1024.Idx → EReal := arrMainH (specW m c) (m ((c : Thread nD τ).loc main_arg0)) (m ((c : Thread nD τ).loc main_arg1)) (m ((c : Thread nD τ).loc main_arg2)) (m ((c : Thread nD τ).loc main_arg3)) (m ((c : Thread nD τ).loc main_arg4))

/-- Entry (r, q) of point t's block sits at (256 t + r, q) of output window 15's array. -/
theorem emb15 (t : Fin cfg0.N) (r : Fin 256) (q : Fin 1024) :
    ((cfg0.win 15).blk t).view.emb (ix2 r q) = (ix2 (brow t r) q : S4096x1024.Idx) := by
  have hf := idx_facts t
  have h0 : win0_15.index t (0 : Fin 2) = t.val := hf.2.2.2.2.2.2.2.2.2.2.2.2.2.2.2.2.2.2.2.2.2.2.2.2.2.2.2.2.2.2.1
  have h1 : win0_15.index t (1 : Fin 2) = 0 := hf.2.2.2.2.2.2.2.2.2.2.2.2.2.2.2.2.2.2.2.2.2.2.2.2.2.2.2.2.2.2.2.1
  refine funext fun a => Fin.ext ?_
  match a with
  | ⟨0, _⟩ => show win0_15.index t (0 : Fin 2) * 256 + 1 * r.val = 256 * t.val + r.val; rw [h0]; omega
  | ⟨1, _⟩ => show win0_15.index t (1 : Fin 2) * 1024 + 1 * q.val = q.val; rw [h1]; omega

/-- What point t writes back to output window 15 is block t of the specification's array. -/
theorem flushed15_eq (c : Dev nD) (t : Fin cfg0.N) :
    (dats m 0 c).flushed 15 t = ((cfg0.win 15).blk t).view.read (Elt Ideal) (resMainH m c) := by
  rw [flushed15]
  unfold out0_15
  simp only [View.ld_unit_zero (S := S256x1024) hz, View.ld_unit_zero (S := S256x256) hz, View.ld_unit_zero (S := S1024x1024) hz, View.ld_unit_zero (S := S1x1024) hz, View.ld_unit_zero (S := S256x64) hz, View.ld_unit_zero (S := S1024x4096) hz, View.ld_unit_zero (S := S64x4096) hz]
  funext y
  obtain ⟨r, q, rfl⟩ : ∃ (r : Fin 256) (q : Fin 1024), y = ix2 r q := ⟨y 0, y 1, eq_ix2 y⟩
  refine (canon15_eq (F := Ideal) (iblk m c 0 t) (iblk m c 1 t) (iblk m c 10 t) (iblk m c 3 t) (iblk m c 7 t) (iblk m c 8 t) (iblk m c 9 t) (iblk m c 14 t) (iblk m c 4 t) (iblk m c 5 t) (iblk m c 6 t) (iblk m c 11 t) (iblk m c 12 t) (iblk m c 13 t) (iblk m c 2 t) (ix2 r q)).trans ?_
  refine (mainH_stored (iblk m c 0 t) (iblk m c 1 t) (iblk m c 10 t) (iblk m c 3 t) (iblk m c 7 t) (iblk m c 8 t) (iblk m c 9 t) (iblk m c 14 t) (iblk m c 4 t) (iblk m c 5 t) (iblk m c 6 t) (iblk m c 11 t) (iblk m c 12 t) (iblk m c 13 t) (iblk m c 2 t) r q).trans ?_
  rw [blockWeights_eq m c t, blk0_row m c t r, blk1_row m c t r, blk2_row m c t r, blk3_row m c t r, blk4_row m c t r]
  show _ = resMainH m c (((cfg0.win 15).blk t).view.emb (ix2 r q))
  rw [emb15]
  rfl

/-- An index of the array is in point t's block iff each coordinate is in the block's range. -/
theorem mem_blk15 (t : Fin cfg0.N) (i : S4096x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v21_0).slice (win0_15.rect t)).set ↔ _
  rw [View.set_slice_whole, Rect.mem_set_unit]
  exact Iff.rfl

/-- Every index of output window 15's array lies in the block of the point its row belongs to. -/
theorem cover15 (i : S4096x1024.Idx) : ∃ t : Fin cfg0.N, (cfg0.win 15).flush t = true ∧ i ∈ ((cfg0.win 15).blk t).view.set := by
  have hN : cfg0.N = 16 := N_0
  have hi0 : (i 0).val < 4096 := (i 0).isLt
  have hi1 : (i 1).val < 1024 := (i 1).isLt
  have hf := idx_facts (⟨(i 0).val / 256, by omega⟩ : Fin cfg0.N)
  have h0 : win0_15.index (⟨(i 0).val / 256, by omega⟩ : Fin cfg0.N) (0 : Fin 2) = (i 0).val / 256 := hf.2.2.2.2.2.2.2.2.2.2.2.2.2.2.2.2.2.2.2.2.2.2.2.2.2.2.2.2.2.2.1
  have h1 : win0_15.index (⟨(i 0).val / 256, by omega⟩ : Fin cfg0.N) (1 : Fin 2) = 0 := hf.2.2.2.2.2.2.2.2.2.2.2.2.2.2.2.2.2.2.2.2.2.2.2.2.2.2.2.2.2.2.2.1
  refine ⟨⟨(i 0).val / 256, by omega⟩, flush0_15 _, ?_⟩
  rw [mem_blk15]
  intro a
  match a with
  | ⟨0, _⟩ =>
    show win0_15.index _ (0 : Fin 2) * 256 ≤ (i 0).val ∧ (i 0).val < win0_15.index _ (0 : Fin 2) * 256 + 256
    rw [h0]; omega
  | ⟨1, _⟩ =>
    show win0_15.index _ (1 : Fin 2) * 1024 ≤ (i 1).val ∧ (i 1).val < win0_15.index _ (1 : Fin 2) * 1024 + 1024
    rw [h1]; omega

/-- So output window 15's array ends holding the specification's array. -/
theorem final15 (c : Dev nD) : (dats m 0 c).arrAt 15 cfg0.N = resMainH m c :=
  (dats m 0 c).arrAt_eq_of_cover 15 (resMainH m c) (fun t _ => flushed15_eq m c t) cover15

/-- The specification's array for output window 16, of the argument arrays as launched. -/
abbrev resMainC (c : Dev nD) : S4096x1024.Idx → EReal := arrMainC (specW m c) (m ((c : Thread nD τ).loc main_arg0)) (m ((c : Thread nD τ).loc main_arg1)) (m ((c : Thread nD τ).loc main_arg2)) (m ((c : Thread nD τ).loc main_arg3)) (m ((c : Thread nD τ).loc main_arg4))

/-- Entry (r, q) of point t's block sits at (256 t + r, q) of output window 16's array. -/
theorem emb16 (t : Fin cfg0.N) (r : Fin 256) (q : Fin 1024) :
    ((cfg0.win 16).blk t).view.emb (ix2 r q) = (ix2 (brow t r) q : S4096x1024.Idx) := by
  have hf := idx_facts t
  have h0 : win0_16.index t (0 : Fin 2) = t.val := hf.2.2.2.2.2.2.2.2.2.2.2.2.2.2.2.2.2.2.2.2.2.2.2.2.2.2.2.2.2.2.2.2.1
  have h1 : win0_16.index t (1 : Fin 2) = 0 := hf.2.2.2.2.2.2.2.2.2.2.2.2.2.2.2.2.2.2.2.2.2.2.2.2.2.2.2.2.2.2.2.2.2.1
  refine funext fun a => Fin.ext ?_
  match a with
  | ⟨0, _⟩ => show win0_16.index t (0 : Fin 2) * 256 + 1 * r.val = 256 * t.val + r.val; rw [h0]; omega
  | ⟨1, _⟩ => show win0_16.index t (1 : Fin 2) * 1024 + 1 * q.val = q.val; rw [h1]; omega

/-- What point t writes back to output window 16 is block t of the specification's array. -/
theorem flushed16_eq (c : Dev nD) (t : Fin cfg0.N) :
    (dats m 0 c).flushed 16 t = ((cfg0.win 16).blk t).view.read (Elt Ideal) (resMainC m c) := by
  rw [flushed16]
  unfold out0_16
  simp only [View.ld_unit_zero (S := S256x1024) hz, View.ld_unit_zero (S := S256x256) hz, View.ld_unit_zero (S := S1024x1024) hz, View.ld_unit_zero (S := S1x1024) hz, View.ld_unit_zero (S := S256x64) hz, View.ld_unit_zero (S := S1024x4096) hz, View.ld_unit_zero (S := S64x4096) hz]
  funext y
  obtain ⟨r, q, rfl⟩ : ∃ (r : Fin 256) (q : Fin 1024), y = ix2 r q := ⟨y 0, y 1, eq_ix2 y⟩
  refine (canon16_eq (F := Ideal) (iblk m c 0 t) (iblk m c 1 t) (iblk m c 10 t) (iblk m c 3 t) (iblk m c 7 t) (iblk m c 8 t) (iblk m c 9 t) (iblk m c 14 t) (iblk m c 4 t) (iblk m c 5 t) (iblk m c 6 t) (iblk m c 11 t) (iblk m c 12 t) (iblk m c 13 t) (iblk m c 2 t) (ix2 r q)).trans ?_
  refine (mainC_stored (iblk m c 0 t) (iblk m c 1 t) (iblk m c 10 t) (iblk m c 3 t) (iblk m c 7 t) (iblk m c 8 t) (iblk m c 9 t) (iblk m c 14 t) (iblk m c 4 t) (iblk m c 5 t) (iblk m c 6 t) (iblk m c 11 t) (iblk m c 12 t) (iblk m c 13 t) (iblk m c 2 t) r q).trans ?_
  rw [blockWeights_eq m c t, blk0_row m c t r, blk1_row m c t r, blk2_row m c t r, blk3_row m c t r, blk4_row m c t r]
  show _ = resMainC m c (((cfg0.win 16).blk t).view.emb (ix2 r q))
  rw [emb16]
  rfl

/-- An index of the array is in point t's block iff each coordinate is in the block's range. -/
theorem mem_blk16 (t : Fin cfg0.N) (i : S4096x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v21_1).slice (win0_16.rect t)).set ↔ _
  rw [View.set_slice_whole, Rect.mem_set_unit]
  exact Iff.rfl

/-- Every index of output window 16's array lies in the block of the point its row belongs to. -/
theorem cover16 (i : S4096x1024.Idx) : ∃ t : Fin cfg0.N, (cfg0.win 16).flush t = true ∧ i ∈ ((cfg0.win 16).blk t).view.set := by
  have hN : cfg0.N = 16 := N_0
  have hi0 : (i 0).val < 4096 := (i 0).isLt
  have hi1 : (i 1).val < 1024 := (i 1).isLt
  have hf := idx_facts (⟨(i 0).val / 256, by omega⟩ : Fin cfg0.N)
  have h0 : win0_16.index (⟨(i 0).val / 256, by omega⟩ : Fin cfg0.N) (0 : Fin 2) = (i 0).val / 256 := hf.2.2.2.2.2.2.2.2.2.2.2.2.2.2.2.2.2.2.2.2.2.2.2.2.2.2.2.2.2.2.2.2.1
  have h1 : win0_16.index (⟨(i 0).val / 256, by omega⟩ : Fin cfg0.N) (1 : Fin 2) = 0 := hf.2.2.2.2.2.2.2.2.2.2.2.2.2.2.2.2.2.2.2.2.2.2.2.2.2.2.2.2.2.2.2.2.2.1
  refine ⟨⟨(i 0).val / 256, by omega⟩, flush0_16 _, ?_⟩
  rw [mem_blk16]
  intro a
  match a with
  | ⟨0, _⟩ =>
    show win0_16.index _ (0 : Fin 2) * 256 ≤ (i 0).val ∧ (i 0).val < win0_16.index _ (0 : Fin 2) * 256 + 256
    rw [h0]; omega
  | ⟨1, _⟩ =>
    show win0_16.index _ (1 : Fin 2) * 1024 ≤ (i 1).val ∧ (i 1).val < win0_16.index _ (1 : Fin 2) * 1024 + 1024
    rw [h1]; omega

/-- So output window 16's array ends holding the specification's array. -/
theorem final16 (c : Dev nD) : (dats m 0 c).arrAt 16 cfg0.N = resMainC m c :=
  (dats m 0 c).arrAt_eq_of_cover 16 (resMainC m c) (fun t _ => flushed16_eq m c t) cover16

/-- The specification's array for output window 17, of the argument arrays as launched. -/
abbrev resSmallH (c : Dev nD) : S4096x256.Idx → EReal := arrSmallH (specW m c) (m ((c : Thread nD τ).loc main_arg0)) (m ((c : Thread nD τ).loc main_arg1)) (m ((c : Thread nD τ).loc main_arg3)) (m ((c : Thread nD τ).loc main_arg4))

/-- Entry (r, q) of point t's block sits at (256 t + r, q) of output window 17's array. -/
theorem emb17 (t : Fin cfg0.N) (r : Fin 256) (q : Fin 256) :
    ((cfg0.win 17).blk t).view.emb (ix2 r q) = (ix2 (brow t r) q : S4096x256.Idx) := by
  have hf := idx_facts t
  have h0 : win0_17.index t (0 : Fin 2) = t.val := hf.2.2.2.2.2.2.2.2.2.2.2.2.2.2.2.2.2.2.2.2.2.2.2.2.2.2.2.2.2.2.2.2.2.2.1
  have h1 : win0_17.index t (1 : Fin 2) = 0 := hf.2.2.2.2.2.2.2.2.2.2.2.2.2.2.2.2.2.2.2.2.2.2.2.2.2.2.2.2.2.2.2.2.2.2.2.1
  refine funext fun a => Fin.ext ?_
  match a with
  | ⟨0, _⟩ => show win0_17.index t (0 : Fin 2) * 256 + 1 * r.val = 256 * t.val + r.val; rw [h0]; omega
  | ⟨1, _⟩ => show win0_17.index t (1 : Fin 2) * 256 + 1 * q.val = q.val; rw [h1]; omega

/-- What point t writes back to output window 17 is block t of the specification's array. -/
theorem flushed17_eq (c : Dev nD) (t : Fin cfg0.N) :
    (dats m 0 c).flushed 17 t = ((cfg0.win 17).blk t).view.read (Elt Ideal) (resSmallH m c) := by
  rw [flushed17]
  unfold out0_17
  simp only [View.ld_unit_zero (S := S256x1024) hz, View.ld_unit_zero (S := S256x256) hz, View.ld_unit_zero (S := S1024x1024) hz, View.ld_unit_zero (S := S1x1024) hz, View.ld_unit_zero (S := S256x64) hz, View.ld_unit_zero (S := S1024x4096) hz, View.ld_unit_zero (S := S64x4096) hz]
  funext y
  obtain ⟨r, q, rfl⟩ : ∃ (r : Fin 256) (q : Fin 256), y = ix2 r q := ⟨y 0, y 1, eq_ix2 y⟩
  refine (canon17_eq (F := Ideal) (iblk m c 0 t) (iblk m c 1 t) (iblk m c 3 t) (iblk m c 7 t) (iblk m c 8 t) (iblk m c 9 t) (iblk m c 14 t) (iblk m c 4 t) (ix2 r q)).trans ?_
  refine (smallH_stored (iblk m c 0 t) (iblk m c 1 t) (iblk m c 3 t) (iblk m c 7 t) (iblk m c 8 t) (iblk m c 9 t) (iblk m c 14 t) (iblk m c 4 t) r q).trans ?_
  rw [w7 m c t, w8 m c t, w9 m c t, w14 m c t, blk0_row m c t r, blk1_row m c t r, blk3_row m c t r, blk4_row m c t r]
  show _ = resSmallH m c (((cfg0.win 17).blk t).view.emb (ix2 r q))
  rw [emb17]
  rfl

/-- An index of the array is in point t's block iff each coordinate is in the block's range. -/
theorem mem_blk17 (t : Fin cfg0.N) (i : S4096x256.Idx) :
    i ∈ ((cfg0.win 17).blk t).view.set ↔ ∀ a : Fin 2, win0_17.index t a * S256x256.size a ≤ (i a).val ∧ (i a).val < win0_17.index t a * S256x256.size a + S256x256.size a := by
  show i ∈ ((View.whole main_v21_2).slice (win0_17.rect t)).set ↔ _
  rw [View.set_slice_whole, Rect.mem_set_unit]
  exact Iff.rfl

/-- Every index of output window 17's array lies in the block of the point its row belongs to. -/
theorem cover17 (i : S4096x256.Idx) : ∃ t : Fin cfg0.N, (cfg0.win 17).flush t = true ∧ i ∈ ((cfg0.win 17).blk t).view.set := by
  have hN : cfg0.N = 16 := N_0
  have hi0 : (i 0).val < 4096 := (i 0).isLt
  have hi1 : (i 1).val < 256 := (i 1).isLt
  have hf := idx_facts (⟨(i 0).val / 256, by omega⟩ : Fin cfg0.N)
  have h0 : win0_17.index (⟨(i 0).val / 256, by omega⟩ : Fin cfg0.N) (0 : Fin 2) = (i 0).val / 256 := hf.2.2.2.2.2.2.2.2.2.2.2.2.2.2.2.2.2.2.2.2.2.2.2.2.2.2.2.2.2.2.2.2.2.2.1
  have h1 : win0_17.index (⟨(i 0).val / 256, by omega⟩ : Fin cfg0.N) (1 : Fin 2) = 0 := hf.2.2.2.2.2.2.2.2.2.2.2.2.2.2.2.2.2.2.2.2.2.2.2.2.2.2.2.2.2.2.2.2.2.2.2.1
  refine ⟨⟨(i 0).val / 256, by omega⟩, flush0_17 _, ?_⟩
  rw [mem_blk17]
  intro a
  match a with
  | ⟨0, _⟩ =>
    show win0_17.index _ (0 : Fin 2) * 256 ≤ (i 0).val ∧ (i 0).val < win0_17.index _ (0 : Fin 2) * 256 + 256
    rw [h0]; omega
  | ⟨1, _⟩ =>
    show win0_17.index _ (1 : Fin 2) * 256 ≤ (i 1).val ∧ (i 1).val < win0_17.index _ (1 : Fin 2) * 256 + 256
    rw [h1]; omega

/-- So output window 17's array ends holding the specification's array. -/
theorem final17 (c : Dev nD) : (dats m 0 c).arrAt 17 cfg0.N = resSmallH m c :=
  (dats m 0 c).arrAt_eq_of_cover 17 (resSmallH m c) (fun t _ => flushed17_eq m c t) cover17

/-- The specification's array for output window 18, of the argument arrays as launched. -/
abbrev resSmallC (c : Dev nD) : S4096x256.Idx → EReal := arrSmallC (specW m c) (m ((c : Thread nD τ).loc main_arg0)) (m ((c : Thread nD τ).loc main_arg1)) (m ((c : Thread nD τ).loc main_arg3)) (m ((c : Thread nD τ).loc main_arg4))

/-- Entry (r, q) of point t's block sits at (256 t + r, q) of output window 18's array. -/
theorem emb18 (t : Fin cfg0.N) (r : Fin 256) (q : Fin 256) :
    ((cfg0.win 18).blk t).view.emb (ix2 r q) = (ix2 (brow t r) q : S4096x256.Idx) := by
  have hf := idx_facts t
  have h0 : win0_18.index t (0 : Fin 2) = t.val := hf.2.2.2.2.2.2.2.2.2.2.2.2.2.2.2.2.2.2.2.2.2.2.2.2.2.2.2.2.2.2.2.2.2.2.2.2.1
  have h1 : win0_18.index t (1 : Fin 2) = 0 := hf.2.2.2.2.2.2.2.2.2.2.2.2.2.2.2.2.2.2.2.2.2.2.2.2.2.2.2.2.2.2.2.2.2.2.2.2.2
  refine funext fun a => Fin.ext ?_
  match a with
  | ⟨0, _⟩ => show win0_18.index t (0 : Fin 2) * 256 + 1 * r.val = 256 * t.val + r.val; rw [h0]; omega
  | ⟨1, _⟩ => show win0_18.index t (1 : Fin 2) * 256 + 1 * q.val = q.val; rw [h1]; omega

/-- What point t writes back to output window 18 is block t of the specification's array. -/
theorem flushed18_eq (c : Dev nD) (t : Fin cfg0.N) :
    (dats m 0 c).flushed 18 t = ((cfg0.win 18).blk t).view.read (Elt Ideal) (resSmallC m c) := by
  rw [flushed18]
  unfold out0_18
  simp only [View.ld_unit_zero (S := S256x1024) hz, View.ld_unit_zero (S := S256x256) hz, View.ld_unit_zero (S := S1024x1024) hz, View.ld_unit_zero (S := S1x1024) hz, View.ld_unit_zero (S := S256x64) hz, View.ld_unit_zero (S := S1024x4096) hz, View.ld_unit_zero (S := S64x4096) hz]
  funext y
  obtain ⟨r, q, rfl⟩ : ∃ (r : Fin 256) (q : Fin 256), y = ix2 r q := ⟨y 0, y 1, eq_ix2 y⟩
  refine (canon18_eq (F := Ideal) (iblk m c 0 t) (iblk m c 1 t) (iblk m c 3 t) (iblk m c 7 t) (iblk m c 8 t) (iblk m c 9 t) (iblk m c 14 t) (iblk m c 4 t) (ix2 r q)).trans ?_
  refine (smallC_stored (iblk m c 0 t) (iblk m c 1 t) (iblk m c 3 t) (iblk m c 7 t) (iblk m c 8 t) (iblk m c 9 t) (iblk m c 14 t) (iblk m c 4 t) r q).trans ?_
  rw [w7 m c t, w8 m c t, w9 m c t, w14 m c t, blk0_row m c t r, blk1_row m c t r, blk3_row m c t r, blk4_row m c t r]
  show _ = resSmallC m c (((cfg0.win 18).blk t).view.emb (ix2 r q))
  rw [emb18]
  rfl

/-- An index of the array is in point t's block iff each coordinate is in the block's range. -/
theorem mem_blk18 (t : Fin cfg0.N) (i : S4096x256.Idx) :
    i ∈ ((cfg0.win 18).blk t).view.set ↔ ∀ a : Fin 2, win0_18.index t a * S256x256.size a ≤ (i a).val ∧ (i a).val < win0_18.index t a * S256x256.size a + S256x256.size a := by
  show i ∈ ((View.whole main_v21_3).slice (win0_18.rect t)).set ↔ _
  rw [View.set_slice_whole, Rect.mem_set_unit]
  exact Iff.rfl

/-- Every index of output window 18's array lies in the block of the point its row belongs to. -/
theorem cover18 (i : S4096x256.Idx) : ∃ t : Fin cfg0.N, (cfg0.win 18).flush t = true ∧ i ∈ ((cfg0.win 18).blk t).view.set := by
  have hN : cfg0.N = 16 := N_0
  have hi0 : (i 0).val < 4096 := (i 0).isLt
  have hi1 : (i 1).val < 256 := (i 1).isLt
  have hf := idx_facts (⟨(i 0).val / 256, by omega⟩ : Fin cfg0.N)
  have h0 : win0_18.index (⟨(i 0).val / 256, by omega⟩ : Fin cfg0.N) (0 : Fin 2) = (i 0).val / 256 := hf.2.2.2.2.2.2.2.2.2.2.2.2.2.2.2.2.2.2.2.2.2.2.2.2.2.2.2.2.2.2.2.2.2.2.2.2.1
  have h1 : win0_18.index (⟨(i 0).val / 256, by omega⟩ : Fin cfg0.N) (1 : Fin 2) = 0 := hf.2.2.2.2.2.2.2.2.2.2.2.2.2.2.2.2.2.2.2.2.2.2.2.2.2.2.2.2.2.2.2.2.2.2.2.2.2
  refine ⟨⟨(i 0).val / 256, by omega⟩, flush0_18 _, ?_⟩
  rw [mem_blk18]
  intro a
  match a with
  | ⟨0, _⟩ =>
    show win0_18.index _ (0 : Fin 2) * 256 ≤ (i 0).val ∧ (i 0).val < win0_18.index _ (0 : Fin 2) * 256 + 256
    rw [h0]; omega
  | ⟨1, _⟩ =>
    show win0_18.index _ (1 : Fin 2) * 256 ≤ (i 1).val ∧ (i 1).val < win0_18.index _ (1 : Fin 2) * 256 + 256
    rw [h1]; omega

/-- So output window 18's array ends holding the specification's array. -/
theorem final18 (c : Dev nD) : (dats m 0 c).arrAt 18 cfg0.N = resSmallC m c :=
  (dats m 0 c).arrAt_eq_of_cover 18 (resSmallC m c) (fun t _ => flushed18_eq m c t) cover18

/-! ## The run, read -/

/-- The kernel's run with each result array at the specification's array of the arguments, the arguments unchanged. -/
theorem run : θ_run defs (onTc (τ := τ) (main (F := Ideal))) ⟨m, fun _ => 0, ρ⟩ fun r => ∀ c : Dev nD,
      r.2.mem ((c : Thread nD τ).loc main_v21_0) = resMainH m c
      ∧ r.2.mem ((c : Thread nD τ).loc main_v21_1) = resMainC m c
      ∧ r.2.mem ((c : Thread nD τ).loc main_v21_2) = resSmallH m c
      ∧ r.2.mem ((c : Thread nD τ).loc main_v21_3) = resSmallC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final15 m c), (h c).2.1.trans (final16 m c),
      (h c).2.2.1.trans (final17 m c), (h c).2.2.2.1.trans (final18 m c), (h c).2.2.2.2⟩)
    (Cert.KernelIdeal.Value.run_blocks m ρ)

end Cert.KernelBlocks

end
-- ==== Proof.RefRow.lean ====
/-
  The reference computes the same step on the whole batch, one host operation at a time; here each of its stages is
  read at an entry (p, q) and identified with the one-row step of the specification at row p.

  Two things differ in spelling from the kernel's body.  The reference joins x and h into one row of 2048 numbers and
  multiplies by the whole W_ih: its sum over 2048 terms splits at 1024 into the sum against the first half of W_ih's
  input units (those meeting x) plus the sum against the second half (those meeting h).  And it spells the logistic
  function as the quotient 1 / (1 + exp (-v)), which is that function's definition on the extended reals; the constant
  it divides and adds is the float one, which denotes the number one.
-/
import proofs.«167938_j35691178230152_2_alg».proof.Proof.Gen.ReferenceIdeal.Read
import proofs.«167938_j35691178230152_2_alg».proof.Proof.HyperCell
import Idealize.ShloMosaic.Lib.Pipeline.Value
import Idealize.ShloMosaic.Lib.ValueIdx

noncomputable section

open scoped BigOperators

namespace Cert.RefRow

open Cert.ReferenceIdeal Cert.ReferenceIdeal.Gen Cert.ReferenceIdeal.Read Cert.HyperCell
open Idealize.ShloMosaic Idealize.ShloMosaic.ValueIdx

/-- A matrix index is the pair of its coordinates. -/
theorem ix2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

variable (x0 x1 x2 : (⟨S4096x1024, .f32⟩ : BufTy).Contents (Elt Ideal)) (x3 x4 : (⟨S4096x256, .f32⟩ : BufTy).Contents (Elt Ideal))
  (x5 x6 : (⟨S4096x1024, .f32⟩ : BufTy).Contents (Elt Ideal)) (x7 : (⟨S1024x2048, .f32⟩ : BufTy).Contents (Elt Ideal))
  (x8 : (⟨S1024x256, .f32⟩ : BufTy).Contents (Elt Ideal)) (x9 : (⟨S64x256, .f32⟩ : BufTy).Contents (Elt Ideal))
  (x10 x11 x12 : (⟨S4096x64, .f32⟩ : BufTy).Contents (Elt Ideal)) (x13 : (⟨S1024, .f32⟩ : BufTy).Contents (Elt Ideal))

/-! ## The joined row -/

/-- The first 1024 entries of the joined row are x's. -/
theorem join_left (p : Fin 4096) (k : Fin 1024) :
    val_main_v0 (F := Ideal) x0 x1 (ix2 p (⟨k.val, by omega⟩ : Fin 2048)) = x0 (ix2 p k) := by
  unfold val_main_v0
  exact concatenate_pair_apply_left (1 : Fin S4096x2048.rank) x0 x1 concatenates_S4096x1024_S4096x1024_S4096x2048_d1 _ rfl (ix2 p k)
    (fun b => by match b with | ⟨0, _⟩ => rfl | ⟨1, _⟩ => rfl)

/-- The last 1024 entries of the joined row are h's. -/
theorem join_right (p : Fin 4096) (k : Fin 1024) :
    val_main_v0 (F := Ideal) x0 x1 (ix2 p (⟨1024 + k.val, by omega⟩ : Fin 2048)) = x1 (ix2 p k) := by
  unfold val_main_v0
  exact concatenate_pair_apply_right (1 : Fin S4096x2048.rank) x0 x1 concatenates_S4096x1024_S4096x1024_S4096x2048_d1 _ rfl rfl (ix2 p k)
    (fun b hb => by match b, hb with | ⟨0, _⟩, _ => rfl | ⟨1, _⟩, hb => exact absurd rfl hb)
    (by show k.val + 1024 = 1024 + k.val; omega)

/-! ## The small cell -/

/-- The small cell's pre-activations at (p, n): the product with the joined row splits at 1024. -/
theorem smallPre_ref (p : Fin 4096) (n : Fin 1024) :
    val_main_v8 (F := Ideal) x0 x1 x3 x7 x8 x13 (ix2 p n)
      = smallPre (fun n k => x7 (ix2 n (⟨k.val, by omega⟩ : Fin 2048))) (fun n k => x7 (ix2 n (⟨1024 + k.val, by omega⟩ : Fin 2048)))
          (mat x8) (fun n => x13 (ix1 n)) (row x0 p) (row x1 p) (row x3 p) n := by
  have hl2 : ∀ k : Fin 2048, lidx_main_v2 (ix2 p n) k = ix2 p k := fun k => ix2_ext _ _ _ rfl rfl
  have hr2 : ∀ k : Fin 2048, idx_main_v1 (ridx_main_v2 (ix2 p n) k) = ix2 n k := fun k => ix2_ext _ _ _ rfl rfl
  have hl4 : ∀ k : Fin 256, lidx_main_v4 (ix2 p n) k = ix2 p k := fun k => ix2_ext _ _ _ rfl rfl
  have hr4 : ∀ k : Fin 256, idx_main_v3 (ridx_main_v4 (ix2 p n) k) = ix2 n k := fun k => ix2_ext _ _ _ rfl rfl
  have hb : idx_main_v6 (idx_main_v7 (ix2 p n)) = ix1 n := funext fun a => Fin.ext (by match a with | ⟨0, _⟩ => rfl)
  rw [val_main_v8_apply, val_main_v5_apply, val_main_v2_apply, val_main_v4_apply, val_main_v7_apply, val_main_v6_apply, hb]
  simp only [val_main_v1_apply, val_main_v3_apply, hl2, hr2, hl4, hr4]
  rw [sum_split_1024]
  simp only [join_left, join_right]
  rfl

/-- The small cell's pre-activation row. -/
theorem row_smallPre_ref (p : Fin 4096) :
    row (val_main_v8 (F := Ideal) x0 x1 x3 x7 x8 x13) p
      = smallPre (fun n k => x7 (ix2 n (⟨k.val, by omega⟩ : Fin 2048))) (fun n k => x7 (ix2 n (⟨1024 + k.val, by omega⟩ : Fin 2048)))
          (mat x8) (fun n => x13 (ix1 n)) (row x0 p) (row x1 p) (row x3 p) :=
  funext fun n => smallPre_ref x0 x1 x3 x7 x8 x13 p n

/-- The small cell's new state at (p, q), over its pre-activation row. -/
theorem smallC_ref (p : Fin 4096) (q : Fin 256) :
    val_main_v34 (F := Ideal) x0 x1 x3 x4 x7 x8 x13 (ix2 p q) = smallC (row (val_main_v8 (F := Ideal) x0 x1 x3 x7 x8 x13) p) (row x4 p) q := by
  have h9 : idx_main_v9 (ix2 p q) = ix2 p (⟨q.val, by omega⟩ : Fin 1024) := ix2_ext _ _ _ rfl rfl
  have h10 : idx_main_v10 (ix2 p q) = ix2 p (⟨256 + q.val, by omega⟩ : Fin 1024) := ix2_ext _ _ _ rfl rfl
  have h11 : idx_main_v11 (ix2 p q) = ix2 p (⟨512 + q.val, by omega⟩ : Fin 1024) := ix2_ext _ _ _ rfl rfl
  simp only [val_main_v34_apply, val_main_v32_apply, val_main_v33_apply, val_main_v24_apply, val_main_v23_apply, val_main_cst_2_apply, val_main_v22_apply, val_main_v21_apply, val_main_cst_1_apply, val_main_v20_apply, val_main_v19_apply, val_main_v10_apply, val_main_v18_apply, val_main_v17_apply, val_main_cst_0_apply, val_main_v16_apply, val_main_v15_apply, val_main_cst_apply, val_main_v14_apply, val_main_v13_apply, val_main_v9_apply, val_main_v31_apply, val_main_v11_apply, h9, h10, h11, Ideal.ofBits_def, ofBits_one_f32]
  rfl

/-- The small cell's new hidden value at (p, q), over its pre-activation row. -/
theorem smallH_ref (p : Fin 4096) (q : Fin 256) :
    val_main_v36 (F := Ideal) x0 x1 x3 x4 x7 x8 x13 (ix2 p q) = smallH (row (val_main_v8 (F := Ideal) x0 x1 x3 x7 x8 x13) p) (row x4 p) q := by
  have h12 : idx_main_v12 (ix2 p q) = ix2 p (⟨768 + q.val, by omega⟩ : Fin 1024) := ix2_ext _ _ _ rfl rfl
  rw [val_main_v36_apply, val_main_v35_apply, smallC_ref]
  simp only [val_main_v30_apply, val_main_v29_apply, val_main_cst_4_apply, val_main_v28_apply, val_main_v27_apply, val_main_cst_3_apply, val_main_v26_apply, val_main_v25_apply, val_main_v12_apply, h12, Ideal.ofBits_def, ofBits_one_f32]
  rfl

/-! ## The embedding and the main cell -/

/-- The embedding at (p, e): W_hz applied to the small cell's new hidden row. -/
theorem embed_ref (p : Fin 4096) (e : Fin 64) :
    val_main_v38 (F := Ideal) x0 x1 x3 x4 x7 x8 x9 x13 (ix2 p e) = proj (mat x9) (row (val_main_v36 (F := Ideal) x0 x1 x3 x4 x7 x8 x13) p) e := by
  have hl : ∀ k : Fin 256, lidx_main_v38 (ix2 p e) k = ix2 p k := fun k => ix2_ext _ _ _ rfl rfl
  have hr : ∀ k : Fin 256, idx_main_v37 (ridx_main_v38 (ix2 p e) k) = ix2 e k := fun k => ix2_ext _ _ _ rfl rfl
  rw [val_main_v38_apply]
  simp only [val_main_v37_apply, hl, hr]
  rfl

/-- The main cell's pre-activations at (p, n), over the embedding row. -/
theorem mainPre_ref (p : Fin 4096) (n : Fin 4096) :
    val_main_v52 (F := Ideal) x0 x1 x3 x4 x5 x6 x7 x8 x9 x10 x11 x12 x13 (ix2 p n)
      = mainPre (mat x10) (mat x5) (mat x11) (mat x6) (mat x12) (row (val_main_v38 (F := Ideal) x0 x1 x3 x4 x7 x8 x9 x13) p) (row x0 p) (row x1 p) n := by
  have hl40 : ∀ k : Fin 64, lidx_main_v40 (ix2 p n) k = ix2 p k := fun k => ix2_ext _ _ _ rfl rfl
  have hr40 : ∀ k : Fin 64, idx_main_v39 (ridx_main_v40 (ix2 p n) k) = ix2 n k := fun k => ix2_ext _ _ _ rfl rfl
  have hl42 : ∀ k : Fin 1024, lidx_main_v42 (ix2 p n) k = ix2 p k := fun k => ix2_ext _ _ _ rfl rfl
  have hr42 : ∀ k : Fin 1024, idx_main_v41 (ridx_main_v42 (ix2 p n) k) = ix2 n k := fun k => ix2_ext _ _ _ rfl rfl
  have hl45 : ∀ k : Fin 64, lidx_main_v45 (ix2 p n) k = ix2 p k := fun k => ix2_ext _ _ _ rfl rfl
  have hr45 : ∀ k : Fin 64, idx_main_v44 (ridx_main_v45 (ix2 p n) k) = ix2 n k := fun k => ix2_ext _ _ _ rfl rfl
  have hl47 : ∀ k : Fin 1024, lidx_main_v47 (ix2 p n) k = ix2 p k := fun k => ix2_ext _ _ _ rfl rfl
  have hr47 : ∀ k : Fin 1024, idx_main_v46 (ridx_main_v47 (ix2 p n) k) = ix2 n k := fun k => ix2_ext _ _ _ rfl rfl
  have hl51 : ∀ k : Fin 64, lidx_main_v51 (ix2 p n) k = ix2 p k := fun k => ix2_ext _ _ _ rfl rfl
  have hr51 : ∀ k : Fin 64, idx_main_v50 (ridx_main_v51 (ix2 p n) k) = ix2 n k := fun k => ix2_ext _ _ _ rfl rfl
  rw [val_main_v52_apply, val_main_v49_apply, val_main_v43_apply, val_main_v48_apply, val_main_v40_apply, val_main_v42_apply,
    val_main_v45_apply, val_main_v47_apply, val_main_v51_apply]
  simp only [val_main_v39_apply, val_main_v41_apply, val_main_v44_apply, val_main_v46_apply, val_main_v50_apply,
    hl40, hr40, hl42, hr42, hl45, hr45, hl47, hr47, hl51, hr51]
  rfl

/-- The main cell's new state at (p, q), over its pre-activation row. -/
theorem mainC_ref (p : Fin 4096) (q : Fin 1024) :
    val_main_v78 (F := Ideal) x0 x1 x2 x3 x4 x5 x6 x7 x8 x9 x10 x11 x12 x13 (ix2 p q) = mainC (row (val_main_v52 (F := Ideal) x0 x1 x3 x4 x5 x6 x7 x8 x9 x10 x11 x12 x13) p) (row x2 p) q := by
  have h53 : idx_main_v53 (ix2 p q) = ix2 p (⟨q.val, by omega⟩ : Fin 4096) := ix2_ext _ _ _ rfl rfl
  have h54 : idx_main_v54 (ix2 p q) = ix2 p (⟨1024 + q.val, by omega⟩ : Fin 4096) := ix2_ext _ _ _ rfl rfl
  have h55 : idx_main_v55 (ix2 p q) = ix2 p (⟨2048 + q.val, by omega⟩ : Fin 4096) := ix2_ext _ _ _ rfl rfl
  simp only [val_main_v78_apply, val_main_v76_apply, val_main_v77_apply, val_main_v68_apply, val_main_v67_apply, val_main_cst_8_apply, val_main_v66_apply, val_main_v65_apply, val_main_cst_7_apply, val_main_v64_apply, val_main_v63_apply, val_main_v54_apply, val_main_v62_apply, val_main_v61_apply, val_main_cst_6_apply, val_main_v60_apply, val_main_v59_apply, val_main_cst_5_apply, val_main_v58_apply, val_main_v57_apply, val_main_v53_apply, val_main_v75_apply, val_main_v55_apply, h53, h54, h55, Ideal.ofBits_def, ofBits_one_f32]
  rfl

/-- The main cell's new hidden value at (p, q), over its pre-activation row. -/
theorem mainH_ref (p : Fin 4096) (q : Fin 1024) :
    val_main_v80 (F := Ideal) x0 x1 x2 x3 x4 x5 x6 x7 x8 x9 x10 x11 x12 x13 (ix2 p q) = mainH (row (val_main_v52 (F := Ideal) x0 x1 x3 x4 x5 x6 x7 x8 x9 x10 x11 x12 x13) p) (row x2 p) q := by
  have h56 : idx_main_v56 (ix2 p q) = ix2 p (⟨3072 + q.val, by omega⟩ : Fin 4096) := ix2_ext _ _ _ rfl rfl
  rw [val_main_v80_apply, val_main_v79_apply, mainC_ref]
  simp only [val_main_v74_apply, val_main_v73_apply, val_main_cst_10_apply, val_main_v72_apply, val_main_v71_apply, val_main_cst_9_apply, val_main_v70_apply, val_main_v69_apply, val_main_v56_apply, h56, Ideal.ofBits_def, ofBits_one_f32]
  rfl

/-! ## The four results as the specification's arrays -/

/-- The small cell's new hidden row, in the specification's words. -/
theorem row_smallH_ref (p : Fin 4096) :
    row (val_main_v36 (F := Ideal) x0 x1 x3 x4 x7 x8 x13) p
      = rowSmallH (weightsOf x5 x6 x7 x8 x9 x10 x11 x12 x13) (row x0 p) (row x1 p) (row x3 p) (row x4 p) := by
  funext q
  show val_main_v36 (F := Ideal) x0 x1 x3 x4 x7 x8 x13 (ix2 p q) = _
  rw [smallH_ref, row_smallPre_ref]
  rfl

/-- The main cell's pre-activation row, in the specification's words. -/
theorem row_mainPre_ref (p : Fin 4096) :
    row (val_main_v52 (F := Ideal) x0 x1 x3 x4 x5 x6 x7 x8 x9 x10 x11 x12 x13) p
      = rowMainPre (weightsOf x5 x6 x7 x8 x9 x10 x11 x12 x13) (row x0 p) (row x1 p) (row x3 p) (row x4 p) := by
  have hz : row (val_main_v38 (F := Ideal) x0 x1 x3 x4 x7 x8 x9 x13) p
      = proj (mat x9) (rowSmallH (weightsOf x5 x6 x7 x8 x9 x10 x11 x12 x13) (row x0 p) (row x1 p) (row x3 p) (row x4 p)) := by
    rw [← row_smallH_ref]
    exact funext fun e => embed_ref x0 x1 x3 x4 x7 x8 x9 x13 p e
  funext n
  show val_main_v52 (F := Ideal) x0 x1 x3 x4 x5 x6 x7 x8 x9 x10 x11 x12 x13 (ix2 p n) = _
  rw [mainPre_ref, hz]
  rfl

/-- The reference's first result is the main cell's new hidden array. -/
theorem mainH_eq : val_main_v80 (F := Ideal) x0 x1 x2 x3 x4 x5 x6 x7 x8 x9 x10 x11 x12 x13
    = arrMainH (weightsOf x5 x6 x7 x8 x9 x10 x11 x12 x13) x0 x1 x2 x3 x4 := by
  funext i
  obtain ⟨p, q, rfl⟩ : ∃ (p : Fin 4096) (q : Fin 1024), i = ix2 p q := ⟨i 0, i 1, eq_ix2 i⟩
  rw [mainH_ref, row_mainPre_ref]
  rfl

/-- The reference's second result is the main cell's new state array. -/
theorem mainC_eq : val_main_v78 (F := Ideal) x0 x1 x2 x3 x4 x5 x6 x7 x8 x9 x10 x11 x12 x13
    = arrMainC (weightsOf x5 x6 x7 x8 x9 x10 x11 x12 x13) x0 x1 x2 x3 x4 := by
  funext i
  obtain ⟨p, q, rfl⟩ : ∃ (p : Fin 4096) (q : Fin 1024), i = ix2 p q := ⟨i 0, i 1, eq_ix2 i⟩
  rw [mainC_ref, row_mainPre_ref]
  rfl

/-- The reference's third result is the small cell's new hidden array. -/
theorem smallH_eq : val_main_v36 (F := Ideal) x0 x1 x3 x4 x7 x8 x13
    = arrSmallH (weightsOf x5 x6 x7 x8 x9 x10 x11 x12 x13) x0 x1 x3 x4 := by
  funext i
  obtain ⟨p, q, rfl⟩ : ∃ (p : Fin 4096) (q : Fin 256), i = ix2 p q := ⟨i 0, i 1, eq_ix2 i⟩
  exact congrFun (row_smallH_ref x0 x1 x3 x4 x5 x6 x7 x8 x9 x10 x11 x12 x13 p) q

/-- The reference's fourth result is the small cell's new state array. -/
theorem smallC_eq : val_main_v34 (F := Ideal) x0 x1 x3 x4 x7 x8 x13
    = arrSmallC (weightsOf x5 x6 x7 x8 x9 x10 x11 x12 x13) x0 x1 x3 x4 := by
  funext i
  obtain ⟨p, q, rfl⟩ : ∃ (p : Fin 4096) (q : Fin 256), i = ix2 p q := ⟨i 0, i 1, eq_ix2 i⟩
  rw [smallC_ref, row_smallPre_ref]
  rfl

end Cert.RefRow

end
-- ==== Proof.lean ====
/-
  The certificate of one step of a hypernetwork-modulated LSTM cell: a fused kernel over blocks of 256 batch rows against
  the plain array program.

  Both programs compute, for every batch row, the small cell's pre-activations x W_x^T + h W_h^T + mh W_hh^T + b, its
  gates, the embedding z of its new hidden row, the main cell's pre-activations (z W_di^T)(x W_iH^T) + (z W_dh^T)(h W_HH^T)
  + z W_b^T and its gates (Proof/HyperCell.lean states the step for one row).  The kernel rounds operands to a shorter
  float format on the way into its matrix products, multiplies by weights the host has transposed, and splits W_ih into
  the half meeting x and the half meeting h; the reference joins x and h and multiplies once, and spells the logistic
  function as a quotient.  On the extended reals a change of format is the identity, every matrix product is its sum
  of products, a sum over 2048 terms is the sum of its two halves, and the quotient is the logistic function: so each
  of the four result arrays is, index by index, the same function of the argument arrays (Proof/KernelRow.lean and
  Proof/KernelBlocks.lean for the kernel, Proof/RefRow.lean for the reference).  No law used needs the inputs finite.
  The three frames are the generated frame runs; the idealization rewrote nothing, so it preserves trivially.
-/
import proofs.«167938_j35691178230152_2_alg».proof.Defs
import proofs.«167938_j35691178230152_2_alg».proof.Proof.Gen.Kernel
import proofs.«167938_j35691178230152_2_alg».proof.Proof.Gen.Kernel.Skeleton
import proofs.«167938_j35691178230152_2_alg».proof.Proof.Gen.Kernel.Launch
import proofs.«167938_j35691178230152_2_alg».proof.Proof.Gen.Kernel.Points
import proofs.«167938_j35691178230152_2_alg».proof.Proof.Gen.Kernel.Frame
import proofs.«167938_j35691178230152_2_alg».proof.Proof.Gen.KernelIdeal
import proofs.«167938_j35691178230152_2_alg».proof.Proof.Gen.KernelIdeal.Skeleton
import proofs.«167938_j35691178230152_2_alg».proof.Proof.Gen.KernelIdeal.Launch
import proofs.«167938_j35691178230152_2_alg».proof.Proof.Gen.KernelIdeal.Points
import proofs.«167938_j35691178230152_2_alg».proof.Proof.Gen.KernelIdeal.Frame
import proofs.«167938_j35691178230152_2_alg».proof.Proof.Gen.ReferenceIdeal
import proofs.«167938_j35691178230152_2_alg».proof.Proof.Gen.Pre_finite_inputs
import proofs.«167938_j35691178230152_2_alg».proof.Proof.Gen.KernelIdeal.Value
import proofs.«167938_j35691178230152_2_alg».proof.Proof.Gen.ReferenceIdeal.Run
import proofs.«167938_j35691178230152_2_alg».proof.Proof.Gen.ReferenceIdeal.Read
import proofs.«167938_j35691178230152_2_alg».proof.Proof.HyperCell
import proofs.«167938_j35691178230152_2_alg».proof.Proof.KernelBlocks
import proofs.«167938_j35691178230152_2_alg».proof.Proof.RefRow
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the four results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.Value.run (F := Ideal) m ρ)

set_option maxHeartbeats 1600000 in  -- four result arrays, fourteen agreeing arguments rewritten in each
/-- Both programs end with the four arrays of the one-row step applied to every batch row of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelBlocks.resMainH m c, fun c => Cert.KernelBlocks.resMainC m c,
    fun c => Cert.KernelBlocks.resSmallH m c, fun c => Cert.KernelBlocks.resSmallC m c, Cert.KernelBlocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13⟩ := hagree c
  refine ⟨(h c).1.trans ?_, (h c).2.1.trans ?_, (h c).2.2.1.trans ?_, (h c).2.2.2.1.trans ?_, (h c).2.2.2.2⟩
  · rw [Cert.ReferenceIdeal.Read.val_main_v80_eq, Cert.RefRow.mainH_eq, a0, a1, a2, a3, a4, a5, a6, a7, a8, a9, a10, a11, a12, a13]
    rfl
  · rw [Cert.ReferenceIdeal.Read.val_main_v78_eq, Cert.RefRow.mainC_eq, a0, a1, a2, a3, a4, a5, a6, a7, a8, a9, a10, a11, a12, a13]
    rfl
  · rw [Cert.ReferenceIdeal.Read.val_main_v36_eq, Cert.RefRow.smallH_eq _ _ _ _ (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) _ _ (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) _, a0, a1, a3, a4, a5, a6, a7, a8, a9, a10, a11, a12, a13]
    rfl
  · refine (Cert.ReferenceIdeal.Read.val_main_v34_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg13))).trans ?_
    rw [Cert.RefRow.smallC_eq _ _ _ _ (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) _ _ (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) _, a0, a1, a3, a4, a5, a6, a7, a8, a9, a10, a11, a12, a13]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
